-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x21 : Shape := ⟨2, ![16, 21]⟩
abbrev S16x20x17x64x64 : Shape := ⟨5, ![16, 20, 17, 64, 64]⟩
abbrev S16x20 : Shape := ⟨2, ![16, 20]⟩
abbrev S16 : Shape := ⟨1, ![16]⟩
abbrev S_ : Shape := ⟨0, ![]⟩

class Facts : Prop where
  bcast_S_S16x21 : S_.BroadcastsInDim S16x21 (![] : Fin 0 → Fin S16x21.rank)
  reducesTo_S16x21_S_d0_1 : S16x21.ReducesTo [0, 1] S_
  h_S_ : 0 < S_.numel
  bcast_S_S16x20x17x64x64 : S_.BroadcastsInDim S16x20x17x64x64 (![] : Fin 0 → Fin S16x20x17x64x64.rank)
  reducesTo_S16x20x17x64x64_S_d0_1_2_3_4 : S16x20x17x64x64.ReducesTo [0, 1, 2, 3, 4] S_
  bcast_S_S16x20 : S_.BroadcastsInDim S16x20 (![] : Fin 0 → Fin S16x20.rank)
  reducesTo_S16x20_S_d0_1 : S16x20.ReducesTo [0, 1] S_

variable [Facts]

def fn_part1 {F : FTy → Type} [FloatOps F] (main_v13 : IVec S_ 1) (main_v16 : IVec S16x20x17x64x64 1) : IVec S_ 1 :=
  let main_c_5 : IVec S_ 1 := constantI S_ 1 1#1
  let main_v17 : IVec S_ 1 := (fun x v => Host.reduce IntOp.andi x v reducesTo_S16x20x17x64x64_S_d0_1_2_3_4 h_S_) main_v16 main_c_5
  let main_v18 : IVec S_ 1 := andi main_v13 main_v17
  main_v18

def fn {F : FTy → Type} [FloatOps F] (main_arg0 : FVec F S16x21 .f32) (main_arg1 : FVec F S16x20x17x64x64 .f32) (main_arg2 : FVec F S16x20 .f32) (main_arg3 : FVec F S16x20x17x64x64 .f32) (main_arg4 : IVec S16 32) (main_arg5 : IVec S16x20 32) : IVec S_ 1 :=
  let main_v0 : FVec F S16x21 .f32 := Host.absf main_arg0
  let main_cst : FVec F S_ .f32 := constant S_ .f32 0x7F800000#32
  let main_v1 : FVec F S16x21 .f32 := broadcastInDim S16x21 ![] bcast_S_S16x21 main_cst
  let main_v2 : IVec S16x21 1 := cmpf .olt main_v0 main_v1
  let main_c : IVec S_ 1 := constantI S_ 1 1#1
  let main_v3 : IVec S_ 1 := (fun x v => Host.reduce IntOp.andi x v reducesTo_S16x21_S_d0_1 h_S_) main_v2 main_c
  let main_v4 : FVec F S16x20x17x64x64 .f32 := Host.absf main_arg1
  let main_cst_0 : FVec F S_ .f32 := constant S_ .f32 0x7F800000#32
  let main_v5 : FVec F S16x20x17x64x64 .f32 := broadcastInDim S16x20x17x64x64 ![] bcast_S_S16x20x17x64x64 main_cst_0
  let main_v6 : IVec S16x20x17x64x64 1 := cmpf .olt main_v4 main_v5
  let main_c_1 : IVec S_ 1 := constantI S_ 1 1#1
  let main_v7 : IVec S_ 1 := (fun x v => Host.reduce IntOp.andi x v reducesTo_S16x20x17x64x64_S_d0_1_2_3_4 h_S_) main_v6 main_c_1
  let main_v8 : IVec S_ 1 := andi main_v3 main_v7
  let main_v9 : FVec F S16x20 .f32 := Host.absf main_arg2
  let main_cst_2 : FVec F S_ .f32 := constant S_ .f32 0x7F800000#32
  let main_v10 : FVec F S16x20 .f32 := broadcastInDim S16x20 ![] bcast_S_S16x20 main_cst_2
  let main_v11 : IVec S16x20 1 := cmpf .olt main_v9 main_v10
  let main_c_3 : IVec S_ 1 := constantI S_ 1 1#1
  let main_v12 : IVec S_ 1 := (fun x v => Host.reduce IntOp.andi x v reducesTo_S16x20_S_d0_1 h_S_) main_v11 main_c_3
  let main_v13 : IVec S_ 1 := andi main_v8 main_v12
  let main_v14 : FVec F S16x20x17x64x64 .f32 := Host.absf main_arg3
  let main_cst_4 : FVec F S_ .f32 := constant S_ .f32 0x7F800000#32
  let main_v15 : FVec F S16x20x17x64x64 .f32 := broadcastInDim S16x20x17x64x64 ![] bcast_S_S16x20x17x64x64 main_cst_4
  let main_v16 : IVec S16x20x17x64x64 1 := cmpf .olt main_v14 main_v15
  fn_part1 (F := F) main_v13 main_v16
-- ==== Kernel.lean ====
abbrev S16x21 : Shape := ⟨2, ![16, 21]⟩
abbrev S16x20x17x64x64 : Shape := ⟨5, ![16, 20, 17, 64, 64]⟩
abbrev S16x20 : Shape := ⟨2, ![16, 20]⟩
abbrev S16 : Shape := ⟨1, ![16]⟩
abbrev S_ : Shape := ⟨0, ![]⟩
abbrev S16x1 : Shape := ⟨2, ![16, 1]⟩
abbrev S16x1x1 : Shape := ⟨3, ![16, 1, 1]⟩
abbrev S1 : Shape := ⟨1, ![1]⟩
abbrev S1x1x1 : Shape := ⟨3, ![1, 1, 1]⟩
abbrev S5440x4096 : Shape := ⟨2, ![5440, 4096]⟩
abbrev S16x20x1 : Shape := ⟨3, ![16, 20, 1]⟩
abbrev S16x20x17 : Shape := ⟨3, ![16, 20, 17]⟩
abbrev S5440x1 : Shape := ⟨2, ![5440, 1]⟩
abbrev S1x1 : Shape := ⟨2, ![1, 1]⟩
abbrev S544x4096 : Shape := ⟨2, ![544, 4096]⟩
abbrev S544x1 : Shape := ⟨2, ![544, 1]⟩
abbrev S544 : Shape := ⟨1, ![544]⟩

abbrev nBuf : Space → Nat
  | .hbm => 104
  | .vmem => 8
  | .smem => 0
  | _ => 0

abbrev bufTy : (tb : Table) → Fin (tcTables nBuf tb) → BufTy
  | .hbm, ⟨0, _⟩ => ⟨S16x21, .f32⟩
  | .hbm, ⟨1, _⟩ => ⟨S16x20x17x64x64, .f32⟩
  | .hbm, ⟨2, _⟩ => ⟨S16x20, .f32⟩
  | .hbm, ⟨3, _⟩ => ⟨S16x20x17x64x64, .f32⟩
  | .hbm, ⟨4, _⟩ => ⟨S16, .i32⟩
  | .hbm, ⟨5, _⟩ => ⟨S16x20, .i32⟩
  | .hbm, ⟨6, _⟩ => ⟨S16x20, .f32⟩
  | .hbm, ⟨7, _⟩ => ⟨S_, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16x1, .f32⟩
  | .hbm, ⟨13, _⟩ => ⟨S16x21, .f32⟩
  | .hbm, ⟨14, _⟩ => ⟨S16x21, .f32⟩
  | .hbm, ⟨15, _⟩ => ⟨S16x21, .f32⟩
  | .hbm, ⟨16, _⟩ => ⟨S_, .f32⟩
  | .hbm, ⟨17, _⟩ => ⟨S16, .f32⟩
  | .hbm, ⟨18, _⟩ => ⟨S16x1, .f32⟩
  | .hbm, ⟨19, _⟩ => ⟨S16x1, .f32⟩
  | .hbm, ⟨20, _⟩ => ⟨S16x21, .f32⟩
  | .hbm, ⟨21, _⟩ => ⟨S16x21, .f32⟩
  | .hbm, ⟨22, _⟩ => ⟨S16x1, .i32⟩
  | .hbm, ⟨23, _⟩ => ⟨S_, .i32⟩
  | .hbm, ⟨24, _⟩ => ⟨S16x1, .i32⟩
  | .hbm, ⟨25, _⟩ => ⟨S16x1, .i1⟩
  | .hbm, ⟨26, _⟩ => ⟨S_, .i32⟩
  | .hbm, ⟨27, _⟩ => ⟨S16x1, .i32⟩
  | .hbm, ⟨28, _⟩ => ⟨S16x1, .i32⟩
  | .hbm, ⟨29, _⟩ => ⟨S16x1, .i32⟩
  | .hbm, ⟨30, _⟩ => ⟨S16x1x1, .i32⟩
  | .hbm, ⟨31, _⟩ => ⟨S1, .i32⟩
  | .hbm, ⟨32, _⟩ => ⟨S_, .i32⟩
  | .hbm, ⟨33, _⟩ => ⟨S16x1x1, .i32⟩
  | .hbm, ⟨34, _⟩ => ⟨S16x1x1, .i1⟩
  | .hbm, ⟨35, _⟩ => ⟨S1x1x1, .i32⟩
  | .hbm, ⟨36, _⟩ => ⟨S16x1x1, .i32⟩
  | .hbm, ⟨37, _⟩ => ⟨S16x1x1, .i1⟩
  | .hbm, ⟨38, _⟩ => ⟨S16x1x1, .i1⟩
  | .hbm, ⟨39, _⟩ => ⟨S_, .i1⟩
  | .hbm, ⟨40, _⟩ => ⟨S16x1, .i1⟩
  | .hbm, ⟨41, _⟩ => ⟨S16x1, .f32⟩
  | .hbm, ⟨42, _⟩ => ⟨S_, .f32⟩
  | .hbm, ⟨43, _⟩ => ⟨S16x1, .f32⟩
  | .hbm, ⟨44, _⟩ => ⟨S16x1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S5440x4096, .f32⟩
  | .hbm, ⟨51, _⟩ => ⟨S5440x4096, .f32⟩
  | .hbm, ⟨52, _⟩ => ⟨S16x20x1, .f32⟩
  | .hbm, ⟨53, _⟩ => ⟨S16x20x17, .f32⟩
  | .hbm, ⟨54, _⟩ => ⟨S5440x1, .f32⟩
  | .hbm, ⟨55, _⟩ => ⟨S1x1, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S16x20, .f32⟩
  | .hbm, ⟨75, _⟩ => ⟨S16x20, .f32⟩
  | .hbm, ⟨76, _⟩ => ⟨S16x20, .f32⟩
  | .hbm, ⟨77, _⟩ => ⟨S16x20, .f32⟩
  | .hbm, ⟨78, _⟩ => ⟨S16x20, .f32⟩
  | .hbm, ⟨79, _⟩ => ⟨S16x20, .f32⟩
  | .hbm, ⟨80, _⟩ => ⟨S16x20, .f32⟩
  | .hbm, ⟨81, _⟩ => ⟨S16x20, .f32⟩
  | .hbm, ⟨82, _⟩ => ⟨S16x20, .f32⟩
  | .hbm, ⟨83, _⟩ => ⟨S16x20, .f32⟩
  | .hbm, ⟨84, _⟩ => ⟨S16x20, .f32⟩
  | .hbm, ⟨85, _⟩ => ⟨S_, .f32⟩
  | .hbm, ⟨86, _⟩ => ⟨S16x20, .f32⟩
  | .hbm, ⟨87, _⟩ => ⟨S16x20, .f32⟩
  | .hbm, ⟨88, _⟩ => ⟨S_, .f32⟩
  | .hbm, ⟨89, _⟩ => ⟨S16x20, .f32⟩
  | .hbm, ⟨90, _⟩ => ⟨S16x20, .f32⟩
  | .hbm, ⟨91, _⟩ => ⟨S16x20, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .local _ .vmem, ⟨0, _⟩ => ⟨S544x4096, .f32⟩
  | .local _ .vmem, ⟨1, _⟩ => ⟨S544x4096, .f32⟩
  | .local _ .vmem, ⟨2, _⟩ => ⟨S544x4096, .f32⟩
  | .local _ .vmem, ⟨3, _⟩ => ⟨S544x4096, .f32⟩
  | .local _ .vmem, ⟨4, _⟩ => ⟨S544x1, .f32⟩
  | .local _ .vmem, ⟨5, _⟩ => ⟨S544x1, .f32⟩
  | .local _ .vmem, ⟨6, _⟩ => ⟨S1x1, .f32⟩
  | .local _ .vmem, ⟨7, _⟩ => ⟨S1x1, .f32⟩
  | _, _ => ⟨S16x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v1 : Ref sig .tc := ⟨.hbm, 21, rfl⟩
abbrev main_v2 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v3 : Ref sig .tc := ⟨.hbm, 44, rfl⟩
abbrev main_cst : Ref sig .tc := ⟨.hbm, 45, rfl⟩
abbrev main_v4 : Ref sig .tc := ⟨.hbm, 46, rfl⟩
abbrev main_cst_0 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_cst_1 : Ref sig .tc := ⟨.hbm, 57, rfl⟩
abbrev main_v14 : Ref sig .tc := ⟨.hbm, 58, rfl⟩
abbrev main_cst_2 : Ref sig .tc := ⟨.hbm, 59, rfl⟩
abbrev main_v15 : Ref sig .tc := ⟨.hbm, 60, rfl⟩
abbrev main_cst_3 : Ref sig .tc := ⟨.hbm, 61, rfl⟩
abbrev main_v16 : Ref sig .tc := ⟨.hbm, 62, rfl⟩
abbrev main_cst_4 : Ref sig .tc := ⟨.hbm, 63, rfl⟩
abbrev main_v17 : Ref sig .tc := ⟨.hbm, 64, rfl⟩
abbrev main_cst_5 : Ref sig .tc := ⟨.hbm, 65, rfl⟩
abbrev main_v18 : Ref sig .tc := ⟨.hbm, 66, rfl⟩
abbrev main_v19 : Ref sig .tc := ⟨.hbm, 67, rfl⟩
abbrev main_cst_6 : Ref sig .tc := ⟨.hbm, 68, rfl⟩
abbrev main_v20 : Ref sig .tc := ⟨.hbm, 69, rfl⟩
abbrev main_cst_7 : Ref sig .tc := ⟨.hbm, 70, rfl⟩
abbrev main_call2_v0 : Ref sig .tc := ⟨.hbm, 71, rfl⟩
abbrev main_v21 : Ref sig .tc := ⟨.hbm, 72, rfl⟩
abbrev main_cst_8 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_cst_9 : Ref sig .tc := ⟨.hbm, 85, rfl⟩
abbrev main_v33 : Ref sig .tc := ⟨.hbm, 86, rfl⟩
abbrev main_v34 : Ref sig .tc := ⟨.hbm, 87, rfl⟩
abbrev main_cst_10 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_cst_11 : Ref sig .tc := ⟨.hbm, 92, rfl⟩
abbrev main_v38 : Ref sig .tc := ⟨.hbm, 93, rfl⟩
abbrev main_cst_12 : Ref sig .tc := ⟨.hbm, 94, rfl⟩
abbrev main_v39 : Ref sig .tc := ⟨.hbm, 95, rfl⟩
abbrev main_cst_13 : Ref sig .tc := ⟨.hbm, 96, rfl⟩
abbrev main_v40 : Ref sig .tc := ⟨.hbm, 97, rfl⟩
abbrev main_cst_14 : Ref sig .tc := ⟨.hbm, 98, rfl⟩
abbrev main_v41 : Ref sig .tc := ⟨.hbm, 99, rfl⟩
abbrev main_v42 : Ref sig .tc := ⟨.hbm, 100, rfl⟩
abbrev main_cst_15 : Ref sig .tc := ⟨.hbm, 101, rfl⟩
abbrev main_v43 : Ref sig .tc := ⟨.hbm, 102, rfl⟩
abbrev main_v44 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v28 : BitVec 1 := Scalar.cmpi .eq arg0 c9_i32
  let v29 : BitVec 32 := Scalar.extui v28
  let c0_i32_14 : BitVec 32 := 0#32
  let v30 : BitVec 1 := Scalar.cmpi .ne v29 c0_i32_14
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  reducesTo_S16x21_S16_d1 : S16x21.ReducesTo [1] S16
  h_S_ : 0 < S_.numel
  bcast_S_S16 : S_.BroadcastsInDim S16 (![] : Fin 0 → Fin S16.rank)
  bcast_S16_S16x1_0 : S16.BroadcastsInDim S16x1 (![0] : Fin 1 → Fin S16x1.rank)
  bcast_S16x1_S16x21_0_1 : S16x1.BroadcastsInDim S16x21 (![0, 1] : Fin 2 → Fin S16x21.rank)
  bcast_S_S16x1 : S_.BroadcastsInDim S16x1 (![] : Fin 0 → Fin S16x1.rank)
  shapeCasts_S16x1_S16x1x1 : S16x1.ShapeCasts S16x1x1
  bcast_S_S16x1x1 : S_.BroadcastsInDim S16x1x1 (![] : Fin 0 → Fin S16x1x1.rank)
  bcast_S1_S1x1x1_2 : S1.BroadcastsInDim S1x1x1 (![2] : Fin 1 → Fin S1x1x1.rank)
  bcast_S1x1x1_S16x1x1_0_1_2 : S1x1x1.BroadcastsInDim S16x1x1 (![0, 1, 2] : Fin 3 → Fin S16x1x1.rank)
  reducesTo_S16x1x1_S16x1_d2 : S16x1x1.ReducesTo [2] S16x1
  reducesTo_S16x1_S_d0_1 : S16x1.ReducesTo [0, 1] S_
  shapeCasts_S16x20x17x64x64_S5440x4096 : S16x20x17x64x64.ShapeCasts S5440x4096
  bcast_S16x20_S16x20x1_0_1 : S16x20.BroadcastsInDim S16x20x1 (![0, 1] : Fin 2 → Fin S16x20x1.rank)
  bcast_S16x20x1_S16x20x17_0_1_2 : S16x20x1.BroadcastsInDim S16x20x17 (![0, 1, 2] : Fin 3 → Fin S16x20x17.rank)
  shapeCasts_S16x20x17_S5440x1 : S16x20x17.ShapeCasts S5440x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S544x4096_S544x4096_0_0 : ∀ a, (![0, 0] : Fin 2 → Nat) a + S544x4096.size a ≤ S544x4096.size a
  h_S544x4096 : 0 < S544x4096.numel
  shapeCasts_S544x4096_S544x4096 : S544x4096.ShapeCasts S544x4096
  inb_S544x1_S544x1_0_0 : ∀ a, (![0, 0] : Fin 2 → Nat) a + S544x1.size a ≤ S544x1.size a
  h_S544x1 : 0 < S544x1.numel
  shapeCasts_S544x1_S544x1 : S544x1.ShapeCasts S544x1
  broadcasts_S544x1_S544x4096 : S544x1.Broadcasts S544x4096
  reduces_S544x4096_S544 : S544x4096.Reduces [1] S544
  shapeCasts_S544_S544x1 : S544.ShapeCasts S544x1
  reduces_S544x1_S1 : S544x1.Reduces [0] S1
  shapeCasts_S1_S1x1 : S1.ShapeCasts S1x1
  shapeCasts_S1x1_S_ : S1x1.ShapeCasts S_
  reducesTo_S16x20_S_d0_1 : S16x20.ReducesTo [0, 1] S_
  bcast_S_S16x20 : S_.BroadcastsInDim S16x20 (![] : Fin 0 → Fin S16x20.rank)
  gather_S16x21_S16x1x1_S16x1_n_1_0_0_1_2_11_wf : GatherDims.WF S16x21 S16x1x1 S16x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S544x4096.size a ≤ S5440x4096.size a
  hwx0_0 : ∀ i : grid0.Coords, EltTy.bits .f32 = 32 ∨ (Rect.block (s := S5440x4096) S544x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S544x4096.size a ≤ S5440x4096.size a
  hwx0_1 : ∀ i : grid0.Coords, EltTy.bits .f32 = 32 ∨ (Rect.block (s := S5440x4096) S544x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S544x1.size a ≤ S5440x1.size a
  hwx0_2 : ∀ i : grid0.Coords, EltTy.bits .f32 = 32 ∨ (Rect.block (s := S5440x1) S544x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S16x21_S16x1x1_S16x1_n_1_0_0_1_2_11 : GatherDims S16x21 S16x1x1 S16x1 where
  offsetDims := []
  collapsedSliceDims := [1]
  operandBatchingDims := [0]
  startIndicesBatchingDims := [0]
  startIndexMap := [1]
  indexVectorDim := 2
  sliceSizes := ![1, 1]
  wf := gather_S16x21_S16x1x1_S16x1_n_1_0_0_1_2_11_wf

abbrev win0_0 : Pipeline.Window sig grid0 :=
  Pipeline.Window.ofSpec (Memref.whole main_v7) S544x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S544x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S544x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x21 : Shape := ⟨2, ![16, 21]⟩
abbrev S16x20x17x64x64 : Shape := ⟨5, ![16, 20, 17, 64, 64]⟩
abbrev S16x20 : Shape := ⟨2, ![16, 20]⟩
abbrev S16 : Shape := ⟨1, ![16]⟩
abbrev S_ : Shape := ⟨0, ![]⟩
abbrev S16x1 : Shape := ⟨2, ![16, 1]⟩
abbrev S16x1x1 : Shape := ⟨3, ![16, 1, 1]⟩
abbrev S1 : Shape := ⟨1, ![1]⟩
abbrev S1x1x1 : Shape := ⟨3, ![1, 1, 1]⟩
abbrev S16x20x1x1x1 : Shape := ⟨5, ![16, 20, 1, 1, 1]⟩

abbrev nBuf : Space → Nat
  | .hbm => 116
  | .vmem => 0
  | .smem => 0
  | _ => 0

abbrev bufTy : (tb : Table) → Fin (tcTables nBuf tb) → BufTy
  | .hbm, ⟨0, _⟩ => ⟨S16x21, .f32⟩
  | .hbm, ⟨1, _⟩ => ⟨S16x20x17x64x64, .f32⟩
  | .hbm, ⟨2, _⟩ => ⟨S16x20, .f32⟩
  | .hbm, ⟨3, _⟩ => ⟨S16x20x17x64x64, .f32⟩
  | .hbm, ⟨4, _⟩ => ⟨S16, .i32⟩
  | .hbm, ⟨5, _⟩ => ⟨S16x20, .i32⟩
  | .hbm, ⟨6, _⟩ => ⟨S16x20, .f32⟩
  | .hbm, ⟨7, _⟩ => ⟨S_, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16x1, .f32⟩
  | .hbm, ⟨13, _⟩ => ⟨S16x21, .f32⟩
  | .hbm, ⟨14, _⟩ => ⟨S16x21, .f32⟩
  | .hbm, ⟨15, _⟩ => ⟨S16x21, .f32⟩
  | .hbm, ⟨16, _⟩ => ⟨S_, .f32⟩
  | .hbm, ⟨17, _⟩ => ⟨S16, .f32⟩
  | .hbm, ⟨18, _⟩ => ⟨S16x1, .f32⟩
  | .hbm, ⟨19, _⟩ => ⟨S16x1, .f32⟩
  | .hbm, ⟨20, _⟩ => ⟨S16x21, .f32⟩
  | .hbm, ⟨21, _⟩ => ⟨S16x21, .f32⟩
  | .hbm, ⟨22, _⟩ => ⟨S16x1, .i32⟩
  | .hbm, ⟨23, _⟩ => ⟨S_, .i32⟩
  | .hbm, ⟨24, _⟩ => ⟨S16x1, .i32⟩
  | .hbm, ⟨25, _⟩ => ⟨S16x1, .i1⟩
  | .hbm, ⟨26, _⟩ => ⟨S_, .i32⟩
  | .hbm, ⟨27, _⟩ => ⟨S16x1, .i32⟩
  | .hbm, ⟨28, _⟩ => ⟨S16x1, .i32⟩
  | .hbm, ⟨29, _⟩ => ⟨S16x1, .i32⟩
  | .hbm, ⟨30, _⟩ => ⟨S16x1x1, .i32⟩
  | .hbm, ⟨31, _⟩ => ⟨S1, .i32⟩
  | .hbm, ⟨32, _⟩ => ⟨S_, .i32⟩
  | .hbm, ⟨33, _⟩ => ⟨S16x1x1, .i32⟩
  | .hbm, ⟨34, _⟩ => ⟨S16x1x1, .i1⟩
  | .hbm, ⟨35, _⟩ => ⟨S1x1x1, .i32⟩
  | .hbm, ⟨36, _⟩ => ⟨S16x1x1, .i32⟩
  | .hbm, ⟨37, _⟩ => ⟨S16x1x1, .i1⟩
  | .hbm, ⟨38, _⟩ => ⟨S16x1x1, .i1⟩
  | .hbm, ⟨39, _⟩ => ⟨S_, .i1⟩
  | .hbm, ⟨40, _⟩ => ⟨S16x1, .i1⟩
  | .hbm, ⟨41, _⟩ => ⟨S16x1, .f32⟩
  | .hbm, ⟨42, _⟩ => ⟨S_, .f32⟩
  | .hbm, ⟨43, _⟩ => ⟨S16x1, .f32⟩
  | .hbm, ⟨44, _⟩ => ⟨S16x1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S16x20x17x64x64, .f32⟩
  | .hbm, ⟨52, _⟩ => ⟨S16x20x17x64x64, .i1⟩
  | .hbm, ⟨53, _⟩ => ⟨S_, .f32⟩
  | .hbm, ⟨54, _⟩ => ⟨S_, .f32⟩
  | .hbm, ⟨55, _⟩ => ⟨S16x20x17x64x64, .f32⟩
  | .hbm, ⟨56, _⟩ => ⟨S16x20x17x64x64, .f32⟩
  | .hbm, ⟨57, _⟩ => ⟨S16x20x17x64x64, .f32⟩
  | .hbm, ⟨58, _⟩ => ⟨S16x20x1x1x1, .f32⟩
  | .hbm, ⟨59, _⟩ => ⟨S16x20x17x64x64, .f32⟩
  | .hbm, ⟨60, _⟩ => ⟨S16x20x17x64x64, .f32⟩
  | .hbm, ⟨61, _⟩ => ⟨S16x20x17x64x64, .f32⟩
  | .hbm, ⟨62, _⟩ => ⟨S16x20x17x64x64, .f32⟩
  | .hbm, ⟨63, _⟩ => ⟨S16x20x17x64x64, .f32⟩
  | .hbm, ⟨64, _⟩ => ⟨S16x20x17x64x64, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .i1⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S16x20, .f32⟩
  | .hbm, ⟨87, _⟩ => ⟨S16x20, .f32⟩
  | .hbm, ⟨88, _⟩ => ⟨S16x20, .f32⟩
  | .hbm, ⟨89, _⟩ => ⟨S16x20, .f32⟩
  | .hbm, ⟨90, _⟩ => ⟨S16x20, .f32⟩
  | .hbm, ⟨91, _⟩ => ⟨S16x20, .f32⟩
  | .hbm, ⟨92, _⟩ => ⟨S16x20, .f32⟩
  | .hbm, ⟨93, _⟩ => ⟨S16x20, .f32⟩
  | .hbm, ⟨94, _⟩ => ⟨S16x20, .f32⟩
  | .hbm, ⟨95, _⟩ => ⟨S16x20, .f32⟩
  | .hbm, ⟨96, _⟩ => ⟨S16x20, .f32⟩
  | .hbm, ⟨97, _⟩ => ⟨S_, .f32⟩
  | .hbm, ⟨98, _⟩ => ⟨S16x20, .f32⟩
  | .hbm, ⟨99, _⟩ => ⟨S16x20, .f32⟩
  | .hbm, ⟨100, _⟩ => ⟨S_, .f32⟩
  | .hbm, ⟨101, _⟩ => ⟨S16x20, .f32⟩
  | .hbm, ⟨102, _⟩ => ⟨S16x20, .f32⟩
  | .hbm, ⟨103, _⟩ => ⟨S16x20, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | _, _ => ⟨S16x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v1 : Ref sig .tc := ⟨.hbm, 21, rfl⟩
abbrev main_v2 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v3 : Ref sig .tc := ⟨.hbm, 44, rfl⟩
abbrev main_cst : Ref sig .tc := ⟨.hbm, 45, rfl⟩
abbrev main_v4 : Ref sig .tc := ⟨.hbm, 46, rfl⟩
abbrev main_cst_0 : Ref sig .tc := ⟨.hbm, 47, rfl⟩
abbrev main_v5 : Ref sig .tc := ⟨.hbm, 48, rfl⟩
abbrev main_v6 : Ref sig .tc := ⟨.hbm, 49, rfl⟩
abbrev main_cst_1 : Ref sig .tc := ⟨.hbm, 50, rfl⟩
abbrev main_v7 : Ref sig .tc := ⟨.hbm, 51, rfl⟩
abbrev main_v8 : Ref sig .tc := ⟨.hbm, 52, rfl⟩
abbrev main_cst_2 : Ref sig .tc := ⟨.hbm, 53, rfl⟩
abbrev main_cst_3 : Ref sig .tc := ⟨.hbm, 54, rfl⟩
abbrev main_call2_v0 : Ref sig .tc := ⟨.hbm, 55, rfl⟩
abbrev main_call2_v1 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_cst_4 : Ref sig .tc := ⟨.hbm, 65, rfl⟩
abbrev main_v17 : Ref sig .tc := ⟨.hbm, 66, rfl⟩
abbrev main_cst_5 : Ref sig .tc := ⟨.hbm, 67, rfl⟩
abbrev main_v18 : Ref sig .tc := ⟨.hbm, 68, rfl⟩
abbrev main_cst_6 : Ref sig .tc := ⟨.hbm, 69, rfl⟩
abbrev main_v19 : Ref sig .tc := ⟨.hbm, 70, rfl⟩
abbrev main_cst_7 : Ref sig .tc := ⟨.hbm, 71, rfl⟩
abbrev main_v20 : Ref sig .tc := ⟨.hbm, 72, rfl⟩
abbrev main_cst_8 : Ref sig .tc := ⟨.hbm, 73, rfl⟩
abbrev main_v21 : Ref sig .tc := ⟨.hbm, 74, rfl⟩
abbrev main_cst_9 : Ref sig .tc := ⟨.hbm, 75, rfl⟩
abbrev main_v22 : Ref sig .tc := ⟨.hbm, 76, rfl⟩
abbrev main_v23 : Ref sig .tc := ⟨.hbm, 77, rfl⟩
abbrev main_cst_10 : Ref sig .tc := ⟨.hbm, 78, rfl⟩
abbrev main_v24 : Ref sig .tc := ⟨.hbm, 79, rfl⟩
abbrev main_cst_11 : Ref sig .tc := ⟨.hbm, 80, rfl⟩
abbrev main_v25 : Ref sig .tc := ⟨.hbm, 81, rfl⟩
abbrev main_cst_12 : Ref sig .tc := ⟨.hbm, 82, rfl⟩
abbrev main_call3_v0 : Ref sig .tc := ⟨.hbm, 83, rfl⟩
abbrev main_v26 : Ref sig .tc := ⟨.hbm, 84, rfl⟩
abbrev main_cst_13 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_cst_14 : Ref sig .tc := ⟨.hbm, 97, rfl⟩
abbrev main_v38 : Ref sig .tc := ⟨.hbm, 98, rfl⟩
abbrev main_v39 : Ref sig .tc := ⟨.hbm, 99, rfl⟩
abbrev main_cst_15 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_cst_16 : Ref sig .tc := ⟨.hbm, 104, rfl⟩
abbrev main_v43 : Ref sig .tc := ⟨.hbm, 105, rfl⟩
abbrev main_cst_17 : Ref sig .tc := ⟨.hbm, 106, rfl⟩
abbrev main_v44 : Ref sig .tc := ⟨.hbm, 107, rfl⟩
abbrev main_cst_18 : Ref sig .tc := ⟨.hbm, 108, rfl⟩
abbrev main_v45 : Ref sig .tc := ⟨.hbm, 109, rfl⟩
abbrev main_cst_19 : Ref sig .tc := ⟨.hbm, 110, rfl⟩
abbrev main_v46 : Ref sig .tc := ⟨.hbm, 111, rfl⟩
abbrev main_v47 : Ref sig .tc := ⟨.hbm, 112, rfl⟩
abbrev main_cst_20 : Ref sig .tc := ⟨.hbm, 113, rfl⟩
abbrev main_v48 : Ref sig .tc := ⟨.hbm, 114, rfl⟩
abbrev main_v49 : Ref sig .tc := ⟨.hbm, 115, rfl⟩

abbrev nD : Nat := 1
abbrev τ : Topo := Topo.v7x

variable {F : FTy → Type} [FloatOps F]

class Facts₀ : Prop where
  reducesTo_S16x21_S16_d1 : S16x21.ReducesTo [1] S16
  h_S_ : 0 < S_.numel
  bcast_S_S16 : S_.BroadcastsInDim S16 (![] : Fin 0 → Fin S16.rank)
  bcast_S16_S16x1_0 : S16.BroadcastsInDim S16x1 (![0] : Fin 1 → Fin S16x1.rank)
  bcast_S16x1_S16x21_0_1 : S16x1.BroadcastsInDim S16x21 (![0, 1] : Fin 2 → Fin S16x21.rank)
  bcast_S_S16x1 : S_.BroadcastsInDim S16x1 (![] : Fin 0 → Fin S16x1.rank)
  shapeCasts_S16x1_S16x1x1 : S16x1.ShapeCasts S16x1x1
  bcast_S_S16x1x1 : S_.BroadcastsInDim S16x1x1 (![] : Fin 0 → Fin S16x1x1.rank)
  bcast_S1_S1x1x1_2 : S1.BroadcastsInDim S1x1x1 (![2] : Fin 1 → Fin S1x1x1.rank)
  bcast_S1x1x1_S16x1x1_0_1_2 : S1x1x1.BroadcastsInDim S16x1x1 (![0, 1, 2] : Fin 3 → Fin S16x1x1.rank)
  reducesTo_S16x1x1_S16x1_d2 : S16x1x1.ReducesTo [2] S16x1
  reducesTo_S16x1_S_d0_1 : S16x1.ReducesTo [0, 1] S_
  bcast_S_S16x20x17x64x64 : S_.BroadcastsInDim S16x20x17x64x64 (![] : Fin 0 → Fin S16x20x17x64x64.rank)
  bcast_S16x20_S16x20x1x1x1_0_1 : S16x20.BroadcastsInDim S16x20x1x1x1 (![0, 1] : Fin 2 → Fin S16x20x1x1x1.rank)
  bcast_S16x20x1x1x1_S16x20x17x64x64_0_1_2_3_4 : S16x20x1x1x1.BroadcastsInDim S16x20x17x64x64 (![0, 1, 2, 3, 4] : Fin 5 → Fin S16x20x17x64x64.rank)
  reducesTo_S16x20x17x64x64_S_d0_1_2_3_4 : S16x20x17x64x64.ReducesTo [0, 1, 2, 3, 4] S_
  reducesTo_S16x20_S_d0_1 : S16x20.ReducesTo [0, 1] S_
  bcast_S_S16x20 : S_.BroadcastsInDim S16x20 (![] : Fin 0 → Fin S16x20.rank)
  gather_S16x21_S16x1x1_S16x1_n_1_0_0_1_2_11_wf : GatherDims.WF S16x21 S16x1x1 S16x1 [] [1] [0] [1] [0] 2 ![1, 1]

variable [Facts₀]

def gather_S16x21_S16x1x1_S16x1_n_1_0_0_1_2_11 : GatherDims S16x21 S16x1x1 S16x1 where
  offsetDims := []
  collapsedSliceDims := [1]
  operandBatchingDims := [0]
  startIndicesBatchingDims := [0]
  startIndexMap := [1]
  indexVectorDim := 2
  sliceSizes := ![1, 1]
  wf := gather_S16x21_S16x1x1_S16x1_n_1_0_0_1_2_11_wf

class Facts : Prop extends Facts₀ where

variable [Facts]
-- ==== Proof.KernelRun.lean ====
/-
  The kernel program's run, read at its result: every execution ends with the scalar result at what the host lines after
  the call compute from the call's 1×1 array and from the values the earlier host lines left, and with the six argument
  arrays as they were.
-/
import proofs.«162968_j85796266704954_1_alg».proof.Proof.Gen.KernelIdeal.Frame
import Idealize.ShloMosaic.Lib.Pipeline.Value

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]
variable (m : (ℓ : Loc nD τ sig) → Buf (Elt F) ℓ) (ρ : Dev nD → PrngReg)

/-- What the host lines after the call leave in the program's result buffer. -/
abbrev outcome (c : Dev nD) : Buf (Elt F) ((c.tc : Thread nD τ).loc main_v44) :=
  Pipeline.afterTail₀ cfgs (dats m) 0 (V0 m) [hostOps1, hostOps1_1, hostOps1_2] c main_v44

/-- The run, read at the result and at the arguments. -/
theorem run : θ_run defs (onTc (τ := τ) (main (F := F))) ⟨m, fun _ => 0, ρ⟩ (fun r => ∀ c : Dev nD,
      r.2.mem ((c.tc : Thread nD τ).loc main_v44) = outcome m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v44 (Pipeline.mem_restRefs_of main_v44 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Found

end
-- ==== Proof.Pieces.lean ====
/-
  What the kernel body leaves behind at one grid point, as values.

  The body keeps a 1×1 running total in a scratch buffer.  At every grid point it stores back into the scratch the value
  "what the scratch held, plus the tile's sum" (the second stored value of the body, a pure function of the three loaded
  blocks and of the scratch's contents); at the first point it first resets the scratch to the zero block, so there the
  scratch's contents going in are the zero block; at the last point it also copies the scratch, just stored, into the 1×1
  output block.  Each statement below reads one of these stores back: the contents of the buffer after the point are the
  stored value itself, because every store covers the whole 1×1 buffer and every load reads a whole buffer.
-/
import proofs.«162968_j85796266704954_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- A middle point: the scratch holding `xs0` ends holding the accumulated value over `xs0`. -/
theorem scratch_B (c : Dev nD) (i : grid0.Coords) (arg1 : Memref sig .tc .vmem S544x4096 .f32) (harg1 : arg1.IsWhole) (arg2 : Memref sig .tc .vmem S544x4096 .f32) (harg2 : arg2.IsWhole) (arg3 : Memref sig .tc .vmem S544x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S544x4096 .f32) (x1 : Vec F S544x4096 .f32) (x2 : Vec F S544x1 .f32) (xs0 : Vec F S1x1 .f32) :
    sout0_B_0 c i arg1 harg1 arg2 harg2 arg3 harg3 arg4 harg4 arg5 harg5 hc0 hc1 x0 x1 x2 xs0 = k0_pay2 x0 x1 x2 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  rw [View.canon_unit_zero hz]
  simp only [View.readAt_eq_ld, harg1.read_unread, harg2.read_unread, harg3.read_unread, harg5.read_unread,
    View.ld_unit_zero (S := S544x4096) hz, View.ld_unit_zero (S := S544x1) hz, View.ld_unit_zero (S := S1x1) hz]

/-- The first point: the scratch is reset to the zero block, read back, and ends holding the accumulated value over it. -/
theorem scratch_A (c : Dev nD) (i : grid0.Coords) (arg1 : Memref sig .tc .vmem S544x4096 .f32) (harg1 : arg1.IsWhole) (arg2 : Memref sig .tc .vmem S544x4096 .f32) (harg2 : arg2.IsWhole) (arg3 : Memref sig .tc .vmem S544x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S544x4096 .f32) (x1 : Vec F S544x4096 .f32) (x2 : Vec F S544x1 .f32) :
    sout0_A_0 c i arg1 harg1 arg2 harg2 arg3 harg3 arg4 harg4 arg5 harg5 hc0 hc1 x0 x1 x2 = k0_pay2 x0 x1 x2 k0_pay1 := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread,
    View.ld_unit_zero (S := S544x4096) hz, View.ld_unit_zero (S := S544x1) hz]

/-- The last point, the scratch: as at a middle point. -/
theorem scratch_C (c : Dev nD) (i : grid0.Coords) (arg1 : Memref sig .tc .vmem S544x4096 .f32) (harg1 : arg1.IsWhole) (arg2 : Memref sig .tc .vmem S544x4096 .f32) (harg2 : arg2.IsWhole) (arg3 : Memref sig .tc .vmem S544x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S544x4096 .f32) (x1 : Vec F S544x4096 .f32) (x2 : Vec F S544x1 .f32) (xs0 : Vec F S1x1 .f32) :
    sout0_C_0 c i arg1 harg1 arg2 harg2 arg3 harg3 arg4 harg4 arg5 harg5 hc0 hc1 x0 x1 x2 xs0 = k0_pay2 x0 x1 x2 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero (S := S1x1) hz]
  simp only [View.readAt_eq_ld, harg1.read_unread, harg2.read_unread, harg3.read_unread, harg5.read_unread,
    View.ld_unit_zero (S := S544x4096) hz, View.ld_unit_zero (S := S544x1) hz, View.ld_unit_zero (S := S1x1) hz]

/-- The last point, the output block: the scratch's new contents, copied. -/
theorem out_C (c : Dev nD) (i : grid0.Coords) (arg1 : Memref sig .tc .vmem S544x4096 .f32) (harg1 : arg1.IsWhole) (arg2 : Memref sig .tc .vmem S544x4096 .f32) (harg2 : arg2.IsWhole) (arg3 : Memref sig .tc .vmem S544x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S544x4096 .f32) (x1 : Vec F S544x4096 .f32) (x2 : Vec F S544x1 .f32) (xs0 : Vec F S1x1 .f32) :
    out0_C_3 c i arg1 harg1 arg2 harg2 arg3 harg3 arg4 harg4 arg5 harg5 hc0 hc1 x0 x1 x2 xs0 = k0_pay2 x0 x1 x2 xs0 := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero (S := S1x1) hz, View.readCov_unit_zero (S := S1x1) _ hz]
  simp only [View.readAt_eq_ld, harg1.read_unread, harg2.read_unread, harg3.read_unread, harg5.read_unread,
    View.ld_unit_zero (S := S544x4096) hz, View.ld_unit_zero (S := S544x1) hz, View.ld_unit_zero (S := S1x1) hz]

end Cert.KernelIdeal.Found

end
-- ==== Proof.Chain.lean ====
/-
  The running total across the grid.

  After grid point `n` the 1×1 scratch holds the value the body stores at that point: the accumulated value over what the
  scratch held after point `n − 1` (over the zero block at the first point), of the three input blocks of point `n`.
  This is an induction on the point over the three cases of the body (first, middle, last point); the last point's
  output block holds the same value.
-/
import proofs.«162968_j85796266704954_1_alg».proof.Proof.Pieces

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]
variable (m : (ℓ : Loc nD τ sig) → Buf (Elt F) ℓ)

/-- The running total after point `n`: the body's stored value, over the previous total (the zero block at first). -/
def chain (c : Dev nD) : (n : ℕ) → n < cfg0.N → Vec F S1x1 .f32
  | 0, h => k0_pay2 (iblk m c 0 ⟨0, h⟩) (iblk m c 1 ⟨0, h⟩) (iblk m c 2 ⟨0, h⟩) k0_pay1
  | n + 1, h => k0_pay2 (iblk m c 0 ⟨n + 1, h⟩) (iblk m c 1 ⟨n + 1, h⟩) (iblk m c 2 ⟨n + 1, h⟩) (chain c n (Nat.lt_of_succ_lt h))

/-- The scratch after point `n` holds the running total — by induction on the point. -/
theorem scratch_eq (c : Dev nD) : ∀ (n : ℕ) (h : n < cfg0.N), (outsAt0 m c n h).2 = chain m c n h
  | 0, h => by
    rw [outsAt0_A m c ⟨0, h⟩ rfl (by dsimp only; omega)]
    dsimp only
    rw [scratch_A]
    rfl
  | n + 1, h => by
    have hN : cfg0.N = 10 := N_0
    have h0 : ¬(⟨n + 1, h⟩ : Fin cfg0.N).val % 10 = 0 := by dsimp only; omega
    by_cases h1 : (⟨n + 1, h⟩ : Fin cfg0.N).val % 10 = 9
    · rw [outsAt0_C m c ⟨n + 1, h⟩ h0 h1]
      dsimp only
      rw [scratch_C]
      show k0_pay2 _ _ _ (outsAt0 m c n _).2 = k0_pay2 _ _ _ (chain m c n _)
      rw [scratch_eq c n]
    · rw [outsAt0_B m c ⟨n + 1, h⟩ h0 h1]
      dsimp only
      rw [scratch_B]
      show k0_pay2 _ _ _ (outsAt0 m c n _).2 = k0_pay2 _ _ _ (chain m c n _)
      rw [scratch_eq c n]

/-- The last point's output block holds the running total after it. -/
theorem out_last (c : Dev nD) (t : Fin cfg0.N) (h9 : t.val = 9) : (outsAt0 m c t.val t.isLt).1 = chain m c t.val t.isLt := by
  obtain ⟨n, hn⟩ := t
  dsimp only at h9
  subst h9
  rw [outsAt0_C m c ⟨9, hn⟩ (by dsimp only; omega) (by dsimp only)]
  dsimp only
  rw [out_C]
  show k0_pay2 _ _ _ (outsAt0 m c 8 _).2 = k0_pay2 _ _ _ (chain m c 8 _)
  rw [scratch_eq m c 8]

end Cert.KernelIdeal.Found

end
-- ==== Proof.FinalArray.lean ====
/-
  The kernel's 1×1 result array after the run.

  The output window's single block is written back once, after the last grid point, and it is the whole 1×1 array; so the
  array ends holding the running total after the last point.
-/
import proofs.«162968_j85796266704954_1_alg».proof.Proof.Chain

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]
variable (m : (ℓ : Loc nD τ sig) → Buf (Elt F) ℓ)

/-- The running total after the last of the ten points, as contents of the result array. -/
abbrev total (c : Dev nD) : Buf (Elt F) ((c : Thread nD τ).loc main_v12) :=
  chain m c 9 (by rw [show cfg0.N = 10 from N_0]; decide)

/-- The one write-back, at the last point, writes it: the block at zero offsets of the 1×1 array is the array. -/
theorem flushed_eq (c : Dev nD) (t : Fin cfg0.N) (hf : (cfg0.win 3).flush t = true) :
    (dats m 0 c).flushed 3 t = ((cfg0.win 3).blk t).view.read (Elt F) (total m c) := by
  have hN : cfg0.N = 10 := N_0
  have h9 : t.val = 9 := by have := (flush0_3 t).mp hf; have := t.isLt; omega
  obtain rfl : t = t0_9 := Fin.ext h9
  show (cfg0.win 3).cut (grid0.coords t0_9) ((dats m 0 c).after 3 t0_9) = _
  rw [after0_3, out_last m c t0_9 rfl]
  have hz' : (fun a => win0_3.index t0_9 a * main_v12.ty.shape.size a) = fun _ => 0 := funext fun a => by fin_cases a <;> decide
  exact (Memref.read_access_unit_zero (Elt F) main_v12 hz' (fun a => by rw [congrFun hz' a]; simp) (total m c)).symm

/-- So the result array ends holding the running total after the last point. -/
theorem final_total (c : Dev nD) : (dats m 0 c).arrAt 3 cfg0.N = total m c :=
  (dats m 0 c).arrAt_eq_of_cover 3 (total m c) (flushed_eq m c) fun i =>
    ⟨t0_9, (flush0_3 t0_9).mpr rfl, by
      show i ∈ ((View.whole main_v12).slice (win0_3.rect t0_9)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_9 0 * win0_3.size 0 ≤ (i 0 : Nat) ∧ (i 0 : Nat) < win0_3.index t0_9 0 * win0_3.size 0 + win0_3.xsize (grid0.coords t0_9) 0
                  rw [show win0_3.index t0_9 0 * win0_3.size 0 = 0 from by decide +kernel, show win0_3.xsize (grid0.coords t0_9) 0 = 1 from by decide +kernel]; omega
      | ⟨1, _⟩ => show win0_3.index t0_9 1 * win0_3.size 1 ≤ (i 1 : Nat) ∧ (i 1 : Nat) < win0_3.index t0_9 1 * win0_3.size 1 + win0_3.xsize (grid0.coords t0_9) 1
                  rw [show win0_3.index t0_9 1 * win0_3.size 1 = 0 from by decide +kernel, show win0_3.xsize (grid0.coords t0_9) 1 = 1 from by decide +kernel]; omega⟩

end Cert.KernelIdeal.Found

end
-- ==== Proof.Loss.lean ====
/-
  The total loss as a function of the heatmap numerator.

  Both programs compute the same scalar from the same ingredients: the cross-entropy of the count logits against the
  counts (a log-softmax, a lookup along the class axis, a mean), the focal loss of the confidence logits against the
  mask, and the heatmap term `numerator / (mask_sum · 17 · 64 · 64 + ε)`, kept only where the mask is not empty; the
  three are combined with the weights 1, 10 and 1.5.  The programs differ only in how they obtain the numerator, so the
  whole of the rest is named here once, as one function of the numerator and of the four small arguments, and is never
  opened.
-/
import proofs.«162968_j85796266704954_1_alg».proof.Proof.Gen.KernelIdeal

noncomputable section

open Idealize.ShloMosaic Idealize.ShloMosaic.TcCoe Idealize.SL.Sem

namespace Cert.KernelIdeal.Found

open Cert.KernelIdeal Cert.KernelIdeal.Gen

variable {F : FTy → Type} [FloatOps F]

set_option maxRecDepth 8192 in
/-- The total loss from the heatmap numerator `num`, the count logits `a0`, the confidence logits `a2`, the counts `a4`
    and the mask `a5`. -/
def lossOf (num : (⟨S_, .f32⟩ : BufTy).Contents (Elt F)) (a0 : (⟨S16x21, .f32⟩ : BufTy).Contents (Elt F))
    (a2 : (⟨S16x20, .f32⟩ : BufTy).Contents (Elt F)) (a4 : (⟨S16, .i32⟩ : BufTy).Contents (Elt F))
    (a5 : (⟨S16x20, .i32⟩ : BufTy).Contents (Elt F)) : (⟨S_, .f32⟩ : BufTy).Contents (Elt F) :=
  addf (addf (mulf (constant S_ .f32 0x3F800000#32) (Host.negf (Host.divf (Host.reduceAdd (select (Host.reduce IntOp.andi (andi (cmpi .sge (shapeCast _ (select (cmpi .slt (broadcastInDim S16x1 ![0] bcast_S16_S16x1_0 a4) (broadcastInDim S16x1 ![] bcast_S_S16x1 (constantI S_ 32 0#32))) (addi (broadcastInDim S16x1 ![0] bcast_S16_S16x1_0 a4) (broadcastInDim S16x1 ![] bcast_S_S16x1 (constantI S_ 32 21#32))) (broadcastInDim S16x1 ![0] bcast_S16_S16x1_0 a4)) shapeCasts_S16x1_S16x1x1) (broadcastInDim S16x1x1 ![] bcast_S_S16x1x1 (constantI S_ 32 0#32))) (cmpi .sle (shapeCast _ (select (cmpi .slt (broadcastInDim S16x1 ![0] bcast_S16_S16x1_0 a4) (broadcastInDim S16x1 ![] bcast_S_S16x1 (constantI S_ 32 0#32))) (addi (broadcastInDim S16x1 ![0] bcast_S16_S16x1_0 a4) (broadcastInDim S16x1 ![] bcast_S_S16x1 (constantI S_ 32 21#32))) (broadcastInDim S16x1 ![0] bcast_S16_S16x1_0 a4)) shapeCasts_S16x1_S16x1x1) (broadcastInDim S16x1x1 ![0, 1, 2] bcast_S1x1x1_S16x1x1_0_1_2 (broadcastInDim S1x1x1 ![2] bcast_S1_S1x1x1_2 (constantI S1 32 20#32))))) (constantI S_ 1 1#1) reducesTo_S16x1x1_S16x1_d2 h_S_) (Host.gather gather_S16x21_S16x1x1_S16x1_n_1_0_0_1_2_11 (subf (subf a0 (broadcastInDim S16x21 ![0, 1] bcast_S16x1_S16x21_0_1 (broadcastInDim S16x1 ![0] bcast_S16_S16x1_0 (maximumf (broadcastInDim S16 ![] bcast_S_S16 (constant S_ .f32 0xFF800000#32)) (Host.reduce FloatOps.maximumf a0 (constant S_ .f32 0xFF800000#32) reducesTo_S16x21_S16_d1 h_S_))))) (broadcastInDim S16x21 ![0, 1] bcast_S16x1_S16x21_0_1 (Host.log (broadcastInDim S16x1 ![0] bcast_S16_S16x1_0 (Host.reduceAdd (Host.exp (subf a0 (broadcastInDim S16x21 ![0, 1] bcast_S16x1_S16x21_0_1 (broadcastInDim S16x1 ![0] bcast_S16_S16x1_0 (maximumf (broadcastInDim S16 ![] bcast_S_S16 (constant S_ .f32 0xFF800000#32)) (Host.reduce FloatOps.maximumf a0 (constant S_ .f32 0xFF800000#32) reducesTo_S16x21_S16_d1 h_S_)))))) (constant S_ .f32 0x00000000#32) reducesTo_S16x21_S16_d1 h_S_))))) (shapeCast _ (select (cmpi .slt (broadcastInDim S16x1 ![0] bcast_S16_S16x1_0 a4) (broadcastInDim S16x1 ![] bcast_S_S16x1 (constantI S_ 32 0#32))) (addi (broadcastInDim S16x1 ![0] bcast_S16_S16x1_0 a4) (broadcastInDim S16x1 ![] bcast_S_S16x1 (constantI S_ 32 21#32))) (broadcastInDim S16x1 ![0] bcast_S16_S16x1_0 a4)) shapeCasts_S16x1_S16x1x1)) (broadcastInDim S16x1 ![] bcast_S_S16x1 (constant S_ .f32 0x7FC00000#32))) (constant S_ .f32 0x00000000#32) reducesTo_S16x1_S_d0_1 h_S_) (constant S_ .f32 0x41800000#32)))) (mulf (constant S_ .f32 0x41200000#32) (select (cmpf (F := F) .ogt (Host.reduceAdd (sitofp .f32 a5) (constant S_ .f32 0x00000000#32) reducesTo_S16x20_S_d0_1 h_S_) (constant S_ .f32 0x00000000#32)) (Host.divf num (addf (mulf (mulf (mulf (Host.reduceAdd (sitofp .f32 a5) (constant S_ .f32 0x00000000#32) reducesTo_S16x20_S_d0_1 h_S_) (constant S_ .f32 0x41880000#32)) (constant S_ .f32 0x42800000#32)) (constant S_ .f32 0x42800000#32)) (constant S_ .f32 0x358637BD#32))) (id (constant S_ .f32 0x00000000#32))))) (mulf (constant S_ .f32 0x3FC00000#32) (Host.divf (Host.reduceAdd (mulf (Host.powf (subf (broadcastInDim S16x20 ![] bcast_S_S16x20 (constant S_ .f32 0x3F800000#32)) (Host.exp (Host.negf (addf (subf (maximumf a2 (broadcastInDim S16x20 ![] bcast_S_S16x20 (constant S_ .f32 0x00000000#32))) (mulf a2 (sitofp .f32 a5))) (Host.log1p (Host.exp (Host.negf (Host.absf a2)))))))) (broadcastInDim S16x20 ![] bcast_S_S16x20 (constant S_ .f32 0x40000000#32))) (addf (subf (maximumf a2 (broadcastInDim S16x20 ![] bcast_S_S16x20 (constant S_ .f32 0x00000000#32))) (mulf a2 (sitofp .f32 a5))) (Host.log1p (Host.exp (Host.negf (Host.absf a2)))))) (constant S_ .f32 0x00000000#32) reducesTo_S16x20_S_d0_1 h_S_) (constant S_ .f32 0x43A00000#32)))

end Cert.KernelIdeal.Found

end
-- ==== Proof.Outcome.lean ====
/-
  The kernel program's result is the total loss of the call's 1×1 array.

  The host lines after the call read the call's result array (the running total after the last grid point, as a scalar),
  the float mask, the cross-entropy term left by the lines before the call, and the confidence logits; composing them
  line by line, and the lines before the call in turn, gives the loss function applied to that scalar and to the four
  small argument arrays.
-/
import proofs.«162968_j85796266704954_1_alg».proof.Proof.FinalArray
import proofs.«162968_j85796266704954_1_alg».proof.Proof.KernelRun
import proofs.«162968_j85796266704954_1_alg».proof.Proof.Loss
import Idealize.ShloMosaic.Lib.Pipeline.Value
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Found

open Cert.KernelIdeal Cert.KernelIdeal.Gen

variable {F : FTy → Type} [FloatOps F]
variable (m : (ℓ : Loc nD τ sig) → Buf (Elt F) ℓ)

set_option maxRecDepth 8192 in
set_option maxHeartbeats 2000000 in
/-- The result buffer after the run: the loss function at the call's array, read as a scalar, and the arguments. -/
theorem outcome_eq (c : Dev nD) :
    outcome m c = lossOf (shapeCast S_ (total m c) shapeCasts_S1x1_S_) (m ((c.tc : Thread nD τ).loc main_arg0))
      (m ((c.tc : Thread nD τ).loc main_arg2)) (m ((c.tc : Thread nD τ).loc main_arg4)) (m ((c.tc : Thread nD τ).loc main_arg5)) := by
  have e12 : Pipeline.withArrays (cfgs 0).spec c (V0 m c) (fun w => (dats m 0 c).arrAt w (cfgs 0).N) (Proc.devRef .tc main_v12) = total m c :=
    (Pipeline.withArrays_arr spec0 launch0.win.arr_inj c _ _ 3).trans (final_total m c)
  have e6 : Pipeline.withArrays (cfgs 0).spec c (V0 m c) (fun w => (dats m 0 c).arrAt w (cfgs 0).N) (Proc.devRef .tc main_v6) = V0 m c (Proc.devRef .tc main_v6) :=
    Pipeline.withArrays_of_ne _ c (V0 m c) _ main_v6 (by exact (by decide : ∀ w, Pipeline.arrRef spec0 w ≠ main_v6))
  have e0 : Pipeline.withArrays (cfgs 0).spec c (V0 m c) (fun w => (dats m 0 c).arrAt w (cfgs 0).N) (Proc.devRef .tc main_v0) = V0 m c (Proc.devRef .tc main_v0) :=
    Pipeline.withArrays_of_ne _ c (V0 m c) _ main_v0 (by exact (by decide : ∀ w, Pipeline.arrRef spec0 w ≠ main_v0))
  have e2 : Pipeline.withArrays (cfgs 0).spec c (V0 m c) (fun w => (dats m 0 c).arrAt w (cfgs 0).N) (Proc.devRef .tc main_arg2) = V0 m c (Proc.devRef .tc main_arg2) :=
    Pipeline.withArrays_of_ne _ c (V0 m c) _ main_arg2 (by exact (by decide : ∀ w, Pipeline.arrRef spec0 w ≠ main_arg2))
  unfold outcome Pipeline.afterTail₀
  simp only [hostOps1, hostOps1_1, hostOps1_2, List.flatten_cons, List.flatten_nil, List.append_nil, List.cons_append, List.nil_append]
  after_results_simp
  rw [e12, e6, e0, e2]
  simp only [V0, hostOps0, hostOps0_1, hostOps0_2, hostOps0_3, hostOps0_4, List.flatten_cons, List.flatten_nil, List.append_nil, List.cons_append, List.nil_append]
  after_results_simp
  unfold lossOf
  rfl

end Cert.KernelIdeal.Found

end
-- ==== Proof.Spec.lean ====
/-
  The mathematics of the weighted squared-error numerator, stated once for both programs.

  One entry of the heatmaps contributes `(p − g)² · w(g) · mask`, where the weight `w(g)` is 5 where the target
  exceeds the threshold 0.2 (each constant as its binary word denotes it) and 1 elsewhere.  The kernel sees the two
  heatmap tensors as matrices of 5440 rows (one per (batch, person, keypoint)) by 4096 columns (one per pixel) and the
  mask as a column of 5440 entries, and walks ten tiles of 544 rows, adding each tile's sum to a running total; the
  reference sums the same contributions over the five-dimensional index set in one reduction.  Addition of extended
  reals is commutative and associative, so the two totals agree whatever the entries are.
-/
import Idealize.ShloMosaic.PureOps.Ideal
import Idealize.ShloMosaic.Lib.ValueIdx

noncomputable section

open scoped BigOperators

namespace Cert.PeakMse

open Idealize.ShloMosaic Idealize.ShloMosaic.ValueIdx

/-- The peak weight of a target value: 5 above the threshold 0.2, 1 otherwise. -/
def weight (g : EReal) : EReal :=
  Scalar.select (Ideal.cmp .ogt g (Ideal.ofBits .f32 0x3E4CCCCD#32)) (Ideal.ofBits .f32 0x40A00000#32) (Ideal.ofBits .f32 0x3F800000#32)

/-- One heatmap entry's contribution: the squared error, weighted, times the person's mask value. -/
def contrib (p g mk : EReal) : EReal := (p - g) * (p - g) * weight g * mk

/-- Row `r` of tile `t` among the 5440 rows (ten tiles of 544 rows). -/
def rowAt (t : Fin 10) (r : Fin 544) : Fin 5440 := ⟨t.val * 544 + r.val, by have := t.isLt; have := r.isLt; omega⟩

/-- The sum of the contributions of tile `t`: its 544 rows, each row's 4096 columns. -/
def tileSum (X Y : (⟨2, ![5440, 4096]⟩ : Shape).Idx → EReal) (Mc : (⟨2, ![5440, 1]⟩ : Shape).Idx → EReal) (t : Fin 10) : EReal :=
  ∑ r : Fin 544, ∑ c : Fin 4096,
    contrib (X (ix2 (rowAt t r) c)) (Y (ix2 (rowAt t r) c)) (Mc (ix2 (rowAt t r) (0 : Fin 1)))

/-- The kernel's total: the ten tile sums. -/
def kernelTotal (X Y : (⟨2, ![5440, 4096]⟩ : Shape).Idx → EReal) (Mc : (⟨2, ![5440, 1]⟩ : Shape).Idx → EReal) : EReal :=
  ∑ t : Fin 10, tileSum X Y Mc t

/-- The reference's total: every entry of the five-dimensional tensors, masked by its (batch, person) entry. -/
def refTotal (P G : (⟨5, ![16, 20, 17, 64, 64]⟩ : Shape).Idx → EReal) (mf : (⟨2, ![16, 20]⟩ : Shape).Idx → EReal) : EReal :=
  ∑ a : Fin 16, ∑ b : Fin 20, ∑ k : Fin 17, ∑ h : Fin 64, ∑ w : Fin 64,
    contrib (P (ix5 a b k h w)) (G (ix5 a b k h w)) (mf (ix2 a b))

end Cert.PeakMse

end
-- ==== Proof.LibColumn.lean ====
/-
  Two layout operations of a keepdims row reduction, read at an index: a vector of length a viewed as
  an a-by-1 column reads its own entry, and an a-by-1 column broadcast along the second axis to
  a-by-b reads the column's entry of the same row.
-/
import Idealize.ShloMosaic.Lib.ValueIdx
import Idealize.ShloMosaic.Lib.Pipeline.Value

namespace Cert.Splat.Column

open Idealize.ShloMosaic Idealize.ShloMosaic.ValueIdx

variable {α : Type}

/-- A length-a vector cast to an a-by-1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a-by-1 column broadcast to a-by-b reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Splat.Column
-- ==== Proof.Payload.lean ====
/-
  The kernel body's arithmetic at the ideal values, read at an entry.

  At every grid point the body loads a tile of predictions and a tile of targets (544 rows by 4096 columns each), the
  column of the 544 rows' mask values, and the one-entry accumulator, and stores back the accumulator plus one number.
  Read at the extended reals, that number is the sum over the tile's rows and columns of the entries' contributions
  (squared error, times the peak weight of the target, times the row's mask value): the entrywise operations read
  entry by entry, the mask column broadcast along the rows reads the row's mask value, the reduction along a row is the sum
  over the row's columns, the reduction of the resulting column is the sum over the rows, and every change of shape
  between one-entry or equal shapes moves nothing.  At the first grid point the body first stores the zero block.
-/
import proofs.«162968_j85796266704954_1_alg».proof.Proof.Gen.KernelIdeal.Skeleton
import proofs.«162968_j85796266704954_1_alg».proof.Proof.Spec
import proofs.«162968_j85796266704954_1_alg».proof.Proof.LibColumn
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.PayValue

open Cert.KernelIdeal Cert.KernelIdeal.Gen Idealize.ShloMosaic Idealize.ShloMosaic.ValueIdx

/-- The sum-reduction of a 544-by-4096 block over its second axis reads, at row `r`, the sum of the row's 4096 entries. -/
theorem rowSum_apply (src : FVec Ideal S544x4096 .f32) (h : S544x4096.Reduces [1] S544) (hφ : FKind.Formats .f32)
    (hacc : (0x00000000#32 : BitVec 32) = FKind.add.neutral .f32 hφ) (r : Fin 544) :
    multiReduction .add [1] S544 src 0x00000000#32 h hφ hacc (ix1 r) = ∑ c : Fin 4096, src (ix2 r c) := by
  refine (Ideal.multiReduction_add_single src _ h hφ hacc (ix1 r)).trans ?_
  refine Finset.sum_congr rfl fun c _ => congrArg src ?_
  funext a
  refine Fin.ext ?_
  match a with
  | ⟨0, _⟩ => rfl
  | ⟨1, _⟩ => rfl

/-- The sum-reduction of a 544-by-1 column over its first axis reads, at its one entry, the sum of the column's 544
    entries. -/
theorem colSum_apply (src : FVec Ideal S544x1 .f32) (h : S544x1.Reduces [0] S1) (hφ : FKind.Formats .f32)
    (hacc : (0x00000000#32 : BitVec 32) = FKind.add.neutral .f32 hφ) :
    multiReduction .add [0] S1 src 0x00000000#32 h hφ hacc (ix1 (0 : Fin 1)) = ∑ r : Fin 544, src (ix2 r (0 : Fin 1)) := by
  refine (Ideal.multiReduction_add_single src _ h hφ hacc (ix1 (0 : Fin 1))).trans ?_
  refine Finset.sum_congr rfl fun r _ => congrArg src ?_
  funext a
  refine Fin.ext ?_
  match a with
  | ⟨0, _⟩ => rfl
  | ⟨1, _⟩ => rfl

/-- A one-entry vector viewed as a 1-by-1 block reads, at the block's entry, the vector's entry. -/
theorem shapeCast_one_oneOne_apply (v : FVec Ideal S1 .f32) (h : S1.ShapeCasts S1x1) (a b : Fin 1) :
    shapeCast S1x1 v h (ix2 a b) = v (ix1 (0 : Fin 1)) :=
  shapeCast_apply v h _ _ (by
    have ha : a.val = 0 := by omega
    have hb : b.val = 0 := by omega
    rw [Shape.rowMajor_val_two, Shape.rowMajor_val_one]
    show 0 = a.val * 1 + b.val
    rw [ha, hb])

/-- One entry of the block whose rows are summed: the squared difference of prediction and target, times the
    target's peak weight, times the mask value of the entry's row. -/
theorem weighted_apply (x0 x1 : FVec Ideal S544x4096 .f32) (x2 : FVec Ideal S544x1 .f32)
    (h1 : S544x4096.ShapeCasts S544x4096) (h2 : S544x1.ShapeCasts S544x1) (hb : S544x1.Broadcasts S544x4096)
    (r : Fin 544) (c : Fin 4096) :
    mulf
        (mulf
          (mulf (subf (shapeCast S544x4096 x0 h1) (shapeCast S544x4096 x1 h1))
            (subf (shapeCast S544x4096 x0 h1) (shapeCast S544x4096 x1 h1)))
          (select
            (cmpf .ogt (shapeCast S544x4096 x1 h1) (broadcast S544x4096 (FloatOps.ofBits (F := Ideal) .f32 0x3E4CCCCD#32)))
            (broadcast S544x4096 (FloatOps.ofBits (F := Ideal) .f32 0x40A00000#32))
            (broadcast S544x4096 (FloatOps.ofBits (F := Ideal) .f32 0x3F800000#32))))
        (broadcastTo S544x4096 (shapeCast S544x1 x2 h2) hb) (ix2 r c)
      = Cert.PeakMse.contrib (x0 (ix2 r c)) (x1 (ix2 r c)) (x2 (ix2 r (0 : Fin 1))) := by
  rw [shapeCast_self x0 h1, shapeCast_self x1 h1, shapeCast_self x2 h2]
  refine (mulf_apply _ _ _).trans ?_
  rw [Cert.Splat.Column.broadcastTo_a1_ab_apply x2 hb r c]
  rfl

/-- The value stored at the first grid point's reset: the zero block. -/
theorem pay1_apply (y : S1x1.Idx) : k0_pay1 (F := Ideal) y = 0 := by
  unfold k0_pay1
  refine (congrFun (shapeCast_self _ _) y).trans ?_
  exact Ideal.ofBits_zero_f32

/-- The value stored back into the 1×1 accumulator at every grid point: what it held plus the sum, over the tile's 544 rows
    and 4096 columns, of the entries' contributions. -/
theorem pay2_apply (x0 x1 : Vec Ideal S544x4096 .f32) (x2 : Vec Ideal S544x1 .f32) (acc : Vec Ideal S1x1 .f32) (y : S1x1.Idx) :
    k0_pay2 (F := Ideal) x0 x1 x2 acc y
      = acc y + ∑ r : Fin 544, ∑ c : Fin 4096, Cert.PeakMse.contrib (x0 (ix2 r c)) (x1 (ix2 r c)) (x2 (ix2 r (0 : Fin 1))) := by
  obtain ⟨a, b, rfl⟩ : ∃ (a b : Fin 1), y = ix2 a b := ⟨y 0, y 1, eq_ix2 y⟩
  unfold k0_pay2
  dsimp only
  refine (congrFun (shapeCast_self _ _) _).trans ?_
  refine (addf_apply _ _ _).trans ?_
  refine congrArg (acc (ix2 a b) + ·) ?_
  refine (shapeCast_one_oneOne_apply _ _ a b).trans ?_
  refine (colSum_apply _ _ _ _).trans ?_
  refine Finset.sum_congr rfl fun r _ => ?_
  refine (Cert.Splat.Column.shapeCast_a_a1_apply _ _ r (0 : Fin 1)).trans ?_
  refine (rowSum_apply _ _ _ _ r).trans ?_
  exact Finset.sum_congr rfl fun c _ => weighted_apply x0 x1 x2 _ _ _ r c

end Cert.KernelIdeal.PayValue

end
-- ==== Proof.Reads.lean ====
/-
  What the kernel's three input windows read, and what the host lines before the call put in their arrays.

  The call walks ten grid points.  At point t the first two windows hold rows 544·t … 544·t + 543 (all 4096 columns)
  of the two 5440-by-4096 matrices, and the third holds the same rows of the 5440-by-1 mask column: entry (r, q) of a
  block is entry (544·t + r, q) of its array.  The two matrices are the five-dimensional prediction and target tensors
  reshaped row-major; the mask column is the integer (batch, person) mask converted to floats, repeated along the 17
  keypoints and reshaped row-major.
-/
import proofs.«162968_j85796266704954_1_alg».proof.Proof.Gen.KernelIdeal.Frame
import proofs.«162968_j85796266704954_1_alg».proof.Proof.Spec
import Idealize.ShloMosaic.Lib.Pipeline.Value
import Idealize.ShloMosaic.Lib.StableHlo.Run
import Idealize.ShloMosaic.Lib.ValueIdx

noncomputable section

namespace Cert.KernelIdeal.Reads

open Cert.KernelIdeal Cert.KernelIdeal.Gen Idealize.ShloMosaic Idealize.ShloMosaic.TcCoe Idealize.SL.Sem
  Idealize.ShloMosaic.StableHlo Idealize.ShloMosaic.ValueIdx

variable {F : FTy → Type} [FloatOps F] (m : (ℓ : Loc nD τ sig) → Buf (Elt F) ℓ)

/-! ## The block indices over the grid -/

/-- The first window's block index at grid point t: t along the rows, 0 along the columns. -/
theorem index0 (t : Fin cfg0.N) : win0_0.index t 0 = t.val ∧ win0_0.index t 1 = 0 := by
  rcases fin_N0 t with rfl | rfl | rfl | rfl | rfl | rfl | rfl | rfl | rfl | rfl <;> decide

/-- The second window's block index at grid point t: t along the rows, 0 along the columns. -/
theorem index1 (t : Fin cfg0.N) : win0_1.index t 0 = t.val ∧ win0_1.index t 1 = 0 := by
  rcases fin_N0 t with rfl | rfl | rfl | rfl | rfl | rfl | rfl | rfl | rfl | rfl <;> decide

/-- The third window's block index at grid point t: t along the rows, 0 along the one column. -/
theorem index2 (t : Fin cfg0.N) : win0_2.index t 0 = t.val ∧ win0_2.index t 1 = 0 := by
  rcases fin_N0 t with rfl | rfl | rfl | rfl | rfl | rfl | rfl | rfl | rfl | rfl <;> decide

/-! ## A block read off any array: entry (r, q) of block t is entry (544·t + r, q) of the array -/

/-- The first window's block at point t, read off any contents `A` of its array. -/
theorem blk0_read (c : Dev nD) (A : Buf (Elt F) ((c : Thread nD τ).loc main_v7)) (t : Fin cfg0.N) (r : Fin 544) (q : Fin 4096) :
    ((cfg0.win 0).blk t).view.read (Elt F) A (ix2 r q) = A (ix2 (Cert.PeakMse.rowAt (Fin.cast N_0 t) r) q) := by
  have hi := index0 t
  rw [View.read_apply]
  show A (((cfg0.win 0).blk t).view.emb (ix2 r q)) = A (ix2 (Cert.PeakMse.rowAt (Fin.cast N_0 t) r) q)
  refine congrArg A (funext fun a => Fin.ext ?_)
  match a with
  | ⟨0, _⟩ => show win0_0.index t 0 * 544 + 1 * r.val = t.val * 544 + r.val; rw [hi.1]; omega
  | ⟨1, _⟩ => show win0_0.index t 1 * 4096 + 1 * q.val = q.val; rw [hi.2]; omega

/-- The second window's block at point t, read off any contents `A` of its array. -/
theorem blk1_read (c : Dev nD) (A : Buf (Elt F) ((c : Thread nD τ).loc main_v8)) (t : Fin cfg0.N) (r : Fin 544) (q : Fin 4096) :
    ((cfg0.win 1).blk t).view.read (Elt F) A (ix2 r q) = A (ix2 (Cert.PeakMse.rowAt (Fin.cast N_0 t) r) q) := by
  have hi := index1 t
  rw [View.read_apply]
  show A (((cfg0.win 1).blk t).view.emb (ix2 r q)) = A (ix2 (Cert.PeakMse.rowAt (Fin.cast N_0 t) r) q)
  refine congrArg A (funext fun a => Fin.ext ?_)
  match a with
  | ⟨0, _⟩ => show win0_1.index t 0 * 544 + 1 * r.val = t.val * 544 + r.val; rw [hi.1]; omega
  | ⟨1, _⟩ => show win0_1.index t 1 * 4096 + 1 * q.val = q.val; rw [hi.2]; omega

/-- The third window's block at point t, read off any contents `A` of its array: a column, so the column coordinate
    is 0 on both sides. -/
theorem blk2_read (c : Dev nD) (A : Buf (Elt F) ((c : Thread nD τ).loc main_v11)) (t : Fin cfg0.N) (r : Fin 544) (u : Fin 1) :
    ((cfg0.win 2).blk t).view.read (Elt F) A (ix2 r u) = A (ix2 (Cert.PeakMse.rowAt (Fin.cast N_0 t) r) (0 : Fin 1)) := by
  have hi := index2 t
  rw [View.read_apply]
  show A (((cfg0.win 2).blk t).view.emb (ix2 r u)) = A (ix2 (Cert.PeakMse.rowAt (Fin.cast N_0 t) r) (0 : Fin 1))
  refine congrArg A (funext fun a => Fin.ext ?_)
  match a with
  | ⟨0, _⟩ => show win0_2.index t 0 * 544 + 1 * r.val = t.val * 544 + r.val; rw [hi.1]; omega
  | ⟨1, _⟩ => show win0_2.index t 1 * 1 + 1 * u.val = 0; rw [hi.2]; omega

/-! ## The three input blocks as the region finds them -/

/-- Entry (r, q) of the prediction block at grid point t is entry (544·t + r, q) of the prediction matrix. -/
theorem iblk0_apply (c : Dev nD) (t : Fin cfg0.N) (r : Fin 544) (q : Fin 4096) :
    iblk m c 0 t (ix2 r q) = V m c main_v7 (ix2 (Cert.PeakMse.rowAt (Fin.cast N_0 t) r) q) := by
  unfold iblk
  exact blk0_read c (V m c main_v7) t r q

/-- Entry (r, q) of the target block at grid point t is entry (544·t + r, q) of the target matrix. -/
theorem iblk1_apply (c : Dev nD) (t : Fin cfg0.N) (r : Fin 544) (q : Fin 4096) :
    iblk m c 1 t (ix2 r q) = V m c main_v8 (ix2 (Cert.PeakMse.rowAt (Fin.cast N_0 t) r) q) := by
  unfold iblk
  exact blk1_read c (V m c main_v8) t r q

/-- Entry r of the mask block at grid point t is entry 544·t + r of the mask column. -/
theorem iblk2_apply (c : Dev nD) (t : Fin cfg0.N) (r : Fin 544) (u : Fin 1) :
    iblk m c 2 t (ix2 r u) = V m c main_v11 (ix2 (Cert.PeakMse.rowAt (Fin.cast N_0 t) r) (0 : Fin 1)) := by
  unfold iblk
  exact blk2_read c (V m c main_v11) t r u

/-! ## What the host lines before the call put in the three arrays -/

/-- The prediction matrix is the five-dimensional prediction tensor reshaped row-major to 5440 by 4096. -/
theorem V_main_v7 (c : Dev nD) : V m c main_v7 = shapeCast S5440x4096 (m ((c : Thread nD τ).loc main_arg1)) shapeCasts_S16x20x17x64x64_S5440x4096 := by
  dsimp only [Gen.V, Gen.V0]
  simp only [hostOps0, hostOps0_1, hostOps0_2, hostOps0_3, hostOps0_4, List.flatten_cons, List.flatten_nil, List.append_nil, List.cons_append, List.nil_append]
  after_results_simp
  rfl

/-- The target matrix is the five-dimensional target tensor reshaped row-major to 5440 by 4096. -/
theorem V_main_v8 (c : Dev nD) : V m c main_v8 = shapeCast S5440x4096 (m ((c : Thread nD τ).loc main_arg3)) shapeCasts_S16x20x17x64x64_S5440x4096 := by
  dsimp only [Gen.V, Gen.V0]
  simp only [hostOps0, hostOps0_1, hostOps0_2, hostOps0_3, hostOps0_4, List.flatten_cons, List.flatten_nil, List.append_nil, List.cons_append, List.nil_append]
  after_results_simp
  rfl

/-- The mask column is the integer (batch, person) mask converted to floats, repeated along a new keypoint axis of
    length 17, and reshaped row-major to 5440 by 1. -/
theorem V_main_v11 (c : Dev nD) : V m c main_v11 = shapeCast S5440x1 (broadcastInDim S16x20x17 ![0, 1, 2] bcast_S16x20x1_S16x20x17_0_1_2 (broadcastInDim S16x20x1 ![0, 1] bcast_S16x20_S16x20x1_0_1 (sitofp .f32 (m ((c : Thread nD τ).loc main_arg5))))) shapeCasts_S16x20x17_S5440x1 := by
  dsimp only [Gen.V, Gen.V0]
  simp only [hostOps0, hostOps0_1, hostOps0_2, hostOps0_3, hostOps0_4, List.flatten_cons, List.flatten_nil, List.append_nil, List.cons_append, List.nil_append]
  after_results_simp
  rfl

end Cert.KernelIdeal.Reads

end
-- ==== Proof.TotalValue.lean ====
/-
  The kernel's running total, read at the extended reals, is the specification's total.

  After grid point n the running total is the total after point n − 1 (zero before the first point) plus the sum, over
  the 544 rows and 4096 columns of the three blocks of point n, of the entries' contributions.  The blocks of point n are
  rows n·544 … n·544 + 543 of the two matrices and of the mask column, so that sum is the specification's sum of tile n.
  By induction on the point the running total after point n is the sum of the tile sums of tiles 0 … n; after the last of
  the ten points it is the sum of all ten tile sums, the specification's total.
-/
import proofs.«162968_j85796266704954_1_alg».proof.Proof.FinalArray
import proofs.«162968_j85796266704954_1_alg».proof.Proof.Payload
import proofs.«162968_j85796266704954_1_alg».proof.Proof.Reads
import proofs.«162968_j85796266704954_1_alg».proof.Proof.Spec

noncomputable section

open scoped BigOperators

open Idealize.ShloMosaic Idealize.ShloMosaic.TcCoe Idealize.SL.Sem

namespace Cert.KernelIdeal.Found

open Cert.KernelIdeal Cert.KernelIdeal.Gen Idealize.ShloMosaic.ValueIdx

variable (m : (ℓ : Loc nD τ sig) → Buf (Elt Ideal) ℓ)

/-- The sum of tile `s` when `s` is one of the ten tiles, zero otherwise. -/
def tileTerm (X Y : (⟨2, ![5440, 4096]⟩ : Shape).Idx → EReal) (Mc : (⟨2, ![5440, 1]⟩ : Shape).Idx → EReal) (s : ℕ) : EReal :=
  if hs : s < 10 then Cert.PeakMse.tileSum X Y Mc ⟨s, hs⟩ else 0

/-- Equal entries contribute equally. -/
theorem contrib_congr {p p' g g' k k' : EReal} (hp : p = p') (hg : g = g') (hk : k = k') :
    Cert.PeakMse.contrib p g k = Cert.PeakMse.contrib p' g' k' := by
  rw [hp, hg, hk]

section OverArrays

variable (c : Dev nD) (X Y : (⟨2, ![5440, 4096]⟩ : Shape).Idx → EReal) (Mc : (⟨2, ![5440, 1]⟩ : Shape).Idx → EReal)
  (h0 : ∀ (t : Fin cfg0.N) (r : Fin 544) (q : Fin 4096),
    iblk m c 0 t (ix2 r q) = X (ix2 (Cert.PeakMse.rowAt (Fin.cast N_0 t) r) q))
  (h1 : ∀ (t : Fin cfg0.N) (r : Fin 544) (q : Fin 4096),
    iblk m c 1 t (ix2 r q) = Y (ix2 (Cert.PeakMse.rowAt (Fin.cast N_0 t) r) q))
  (h2 : ∀ (t : Fin cfg0.N) (r : Fin 544) (u : Fin 1),
    iblk m c 2 t (ix2 r u) = Mc (ix2 (Cert.PeakMse.rowAt (Fin.cast N_0 t) r) (0 : Fin 1)))

include h0 h1 h2

/-- One grid point adds its tile's sum: the accumulated value over `acc` of the three blocks of point `t`, whose entries
    are the arrays' entries in rows t·544 … t·544 + 543, is `acc` plus the specification's sum of tile `t`. -/
theorem point_adds_tile (t : Fin cfg0.N) (acc : Vec Ideal S1x1 .f32) (y : S1x1.Idx) :
    k0_pay2 (F := Ideal) (iblk m c 0 t) (iblk m c 1 t) (iblk m c 2 t) acc y
      = acc y + Cert.PeakMse.tileSum X Y Mc (Fin.cast N_0 t) := by
  refine (PayValue.pay2_apply (iblk m c 0 t) (iblk m c 1 t) (iblk m c 2 t) acc y).trans ?_
  unfold Cert.PeakMse.tileSum
  exact congrArg (acc y + ·) (Finset.sum_congr rfl fun r _ => Finset.sum_congr rfl fun q _ =>
    contrib_congr (h0 t r q) (h1 t r q) (h2 t r (0 : Fin 1)))

/-- The running total after point `n` is the sum of the tile sums of tiles 0 … n. -/
theorem chain_eq_sum : ∀ (n : ℕ) (h : n < cfg0.N) (y : S1x1.Idx),
    chain m c n h y = ∑ s ∈ Finset.range (n + 1), tileTerm X Y Mc s
  | 0, h, y => by
    have hN : cfg0.N = 10 := N_0
    refine (point_adds_tile m c X Y Mc h0 h1 h2 ⟨0, h⟩ (k0_pay1 (F := Ideal)) y).trans ?_
    rw [PayValue.pay1_apply, zero_add, Finset.sum_range_one]
    unfold tileTerm
    rw [dif_pos (by omega : 0 < 10)]
    rfl
  | n + 1, h, y => by
    have hN : cfg0.N = 10 := N_0
    have hs : n + 1 < 10 := by omega
    refine (point_adds_tile m c X Y Mc h0 h1 h2 ⟨n + 1, h⟩ (chain m c n (Nat.lt_of_succ_lt h)) y).trans ?_
    rw [chain_eq_sum n (Nat.lt_of_succ_lt h) y, Finset.sum_range_succ _ (n + 1)]
    refine congrArg (_ + ·) ?_
    unfold tileTerm
    rw [dif_pos hs]
    rfl

/-- The running total after the last of the ten points is the specification's total. -/
theorem total_eq_of_reads (y : S1x1.Idx) : total m c y = Cert.PeakMse.kernelTotal X Y Mc := by
  refine (chain_eq_sum m c X Y Mc h0 h1 h2 9 _ y).trans ?_
  unfold Cert.PeakMse.kernelTotal
  rw [Finset.sum_range]
  refine Finset.sum_congr rfl fun t _ => ?_
  unfold tileTerm
  rw [dif_pos t.isLt]

end OverArrays

/-- The kernel's running total after the last point is the specification's total of the three arrays the region finds. -/
theorem total_eq (c : Dev nD) (y : S1x1.Idx) :
    total m c y = Cert.PeakMse.kernelTotal (V m c main_v7) (V m c main_v8) (V m c main_v11) :=
  total_eq_of_reads m c (V m c main_v7) (V m c main_v8) (V m c main_v11)
    (Reads.iblk0_apply m c) (Reads.iblk1_apply m c) (Reads.iblk2_apply m c) y

end Cert.KernelIdeal.Found

end
-- ==== Proof.LibSumIdx.lean ====
/-
  General lemmas on finite sums over index sets built from coordinates.

  * a rank-3 index set is the product of its three coordinate ranges, so a sum over it is the
    triple sum over the coordinates (the rank-3 companion of the rank-2 statement);
  * a sum over `Fin (m * n)` splits into `m` consecutive tiles of `n` terms each.
-/
import Idealize.ShloMosaic.Lib.ValueIdx

noncomputable section

open scoped BigOperators

namespace Cert.LibSumIdx

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The `r`-th element of the `k`-th tile of width `n`. -/
def tile {m n : Nat} (k : Fin m) (r : Fin n) : Fin (m * n) :=
  ⟨k.val * n + r.val, by
    have hk := k.isLt; have hr := r.isLt
    calc k.val * n + r.val < k.val * n + n := by omega
      _ = (k.val + 1) * n := by ring
      _ ≤ m * n := Nat.mul_le_mul_right n hk⟩

/-- A sum over `Fin (m * n)` is the sum over the `m` tiles of the sums over each tile's `n` elements. -/
theorem sum_tiles {M : Type*} [AddCommMonoid M] {m n : Nat} (f : Fin (m * n) → M) :
    ∑ i, f i = ∑ k : Fin m, ∑ r : Fin n, f (tile k r) := by
  rw [← Equiv.sum_comp (finProdFinEquiv (m := m) (n := n)) f, Fintype.sum_prod_type]
  refine Finset.sum_congr rfl fun k _ => Finset.sum_congr rfl fun r _ => congrArg f (Fin.ext ?_)
  show r.val + n * k.val = k.val * n + r.val
  rw [Nat.mul_comm, Nat.add_comm]

end Cert.LibSumIdx

end
-- ==== Proof.LibSumIdx5.lean ====
/-
  A rank-5 index set is the product of its five coordinate ranges, so a sum over it is the five-fold
  sum over the coordinates (the rank-5 companion of the rank-2 and rank-3 statements).
-/
import Idealize.ShloMosaic.Lib.ValueIdx

noncomputable section

open scoped BigOperators

namespace Cert.LibSumIdx

open Idealize.ShloMosaic Idealize.ShloMosaic.ValueIdx

/-- A rank-5 index set is the product of its five coordinate ranges. -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- A sum over a rank-5 index set is the five-fold sum over the coordinates. -/
theorem sum_idx5 {M : Type*} [AddCommMonoid M] {n0 n1 n2 n3 n4 : Nat}
    (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f,
    Fintype.sum_prod_type]
  refine Finset.sum_congr rfl fun a _ => ?_
  rw [Fintype.sum_prod_type]
  refine Finset.sum_congr rfl fun b _ => ?_
  rw [Fintype.sum_prod_type]
  refine Finset.sum_congr rfl fun c _ => ?_
  rw [Fintype.sum_prod_type]
  rfl

end Cert.LibSumIdx

end
-- ==== Proof.Totals.lean ====
/-
  The kernel's total is the reference's total.

  The kernel's two matrices are the row-major reshapes of the five-dimensional heatmap tensors: row
  R = (a * 20 + b) * 17 + k holds (batch a, person b, keypoint k) and column C = h * 64 + w holds pixel (h, w).
  The mask column is the (16, 20) mask spread over the 17 keypoints and flattened, so its row R reads the mask
  at (a, b).  The ten tiles of 544 rows are the 5440 rows.  Hence the kernel's sum over tiles, rows and columns
  is the sum of the same contributions over all (row, column) pairs, which the row-major bijection carries to
  the sum over the five-dimensional index set, which is the reference's five nested sums.  Only commutativity
  and associativity of addition are used.
-/
import proofs.«162968_j85796266704954_1_alg».proof.Proof.Spec
import proofs.«162968_j85796266704954_1_alg».proof.Proof.LibSumIdx
import proofs.«162968_j85796266704954_1_alg».proof.Proof.LibSumIdx5
import Idealize.ShloMosaic.Lib.Pipeline.Value
import Idealize.ShloMosaic.Lib.ValueIdx

noncomputable section

open scoped BigOperators

namespace Cert.PeakMse

open Idealize.ShloMosaic Idealize.ShloMosaic.ValueIdx

/-- The ten tiles of 544 rows are the 5440 rows: summing over tiles and rows within a tile is summing over rows. -/
theorem sum_rowAt {M : Type*} [AddCommMonoid M] (f : Fin 5440 → M) :
    ∑ t : Fin 10, ∑ r : Fin 544, f (rowAt t r) = ∑ R : Fin 5440, f R := by
  have h5440 : 10 * 544 = 5440 := by norm_num
  calc ∑ t : Fin 10, ∑ r : Fin 544, f (rowAt t r)
      = ∑ t : Fin 10, ∑ r : Fin 544, f (finCongr h5440 (Cert.LibSumIdx.tile t r)) :=
        Finset.sum_congr rfl fun t _ => Finset.sum_congr rfl fun r _ => congrArg f (Fin.ext rfl)
    _ = ∑ i : Fin (10 * 544), f (finCongr h5440 i) :=
        (Cert.LibSumIdx.sum_tiles fun i : Fin (10 * 544) => f (finCongr h5440 i)).symm
    _ = ∑ R : Fin 5440, f R := Equiv.sum_comp (finCongr h5440) f

/-- The mask spread over the keypoints and flattened to a column reads, at the row of (batch a, person b,
    keypoint k), the mask at (a, b). -/
theorem maskColumn_apply (mf : (⟨2, ![16, 20]⟩ : Shape).Idx → EReal)
    (h9 : (⟨2, ![16, 20]⟩ : Shape).BroadcastsInDim ⟨3, ![16, 20, 1]⟩ (![0, 1] : Fin 2 → Fin 3))
    (h10 : (⟨3, ![16, 20, 1]⟩ : Shape).BroadcastsInDim ⟨3, ![16, 20, 17]⟩ (![0, 1, 2] : Fin 3 → Fin 3))
    (h11 : (⟨3, ![16, 20, 17]⟩ : Shape).ShapeCasts ⟨2, ![5440, 1]⟩)
    (a : Fin 16) (b : Fin 20) (k : Fin 17) (R : Fin 5440) (hR : (a.val * 20 + b.val) * 17 + k.val = R.val) :
    shapeCast ⟨2, ![5440, 1]⟩
        (broadcastInDim ⟨3, ![16, 20, 17]⟩ ![0, 1, 2] h10 (broadcastInDim ⟨3, ![16, 20, 1]⟩ ![0, 1] h9 mf)) h11
        (ix2 R (0 : Fin 1))
      = mf (ix2 a b) := by
  refine (shapeCast_apply _ h11 (ix2 R (0 : Fin 1)) (ix3 a b k) ?_).trans ?_
  · rw [Shape.rowMajor_val_three, Shape.rowMajor_val_two]
    show (a.val * 20 + b.val) * 17 + k.val = R.val * 1 + 0
    omega
  · refine (broadcastInDim_apply _ h10 _ (ix3 a b k) (ix3 a b (0 : Fin 1)) fun ax => ?_).trans ?_
    · match ax with
      | ⟨0, _⟩ => rfl
      | ⟨1, _⟩ => rfl
      | ⟨2, _⟩ => rfl
    · refine broadcastInDim_apply _ h9 mf (ix3 a b (0 : Fin 1)) (ix2 a b) fun ax => ?_
      match ax with
      | ⟨0, _⟩ => rfl
      | ⟨1, _⟩ => rfl

/-- One entry's contribution as a function of its five-dimensional index: the mask is read at the index's
    (batch, person). -/
def entry (P G : (⟨5, ![16, 20, 17, 64, 64]⟩ : Shape).Idx → EReal) (mf : (⟨2, ![16, 20]⟩ : Shape).Idx → EReal)
    (k : (⟨5, ![16, 20, 17, 64, 64]⟩ : Shape).Idx) : EReal :=
  contrib (P k) (G k) (mf (ix2 (k 0) (k 1)))

/-- The matrix entry at (row R, column C) contributes what the five-dimensional entry at the same row-major
    position contributes. -/
theorem contrib_reshaped
    (P G : (⟨5, ![16, 20, 17, 64, 64]⟩ : Shape).Idx → EReal) (mf : (⟨2, ![16, 20]⟩ : Shape).Idx → EReal)
    (h7 : (⟨5, ![16, 20, 17, 64, 64]⟩ : Shape).ShapeCasts ⟨2, ![5440, 4096]⟩)
    (h9 : (⟨2, ![16, 20]⟩ : Shape).BroadcastsInDim ⟨3, ![16, 20, 1]⟩ (![0, 1] : Fin 2 → Fin 3))
    (h10 : (⟨3, ![16, 20, 1]⟩ : Shape).BroadcastsInDim ⟨3, ![16, 20, 17]⟩ (![0, 1, 2] : Fin 3 → Fin 3))
    (h11 : (⟨3, ![16, 20, 17]⟩ : Shape).ShapeCasts ⟨2, ![5440, 1]⟩) (R : Fin 5440) (c : Fin 4096) :
    contrib (shapeCast ⟨2, ![5440, 4096]⟩ P h7 (ix2 R c)) (shapeCast ⟨2, ![5440, 4096]⟩ G h7 (ix2 R c))
        (shapeCast ⟨2, ![5440, 1]⟩
          (broadcastInDim ⟨3, ![16, 20, 17]⟩ ![0, 1, 2] h10 (broadcastInDim ⟨3, ![16, 20, 1]⟩ ![0, 1] h9 mf)) h11
          (ix2 R (0 : Fin 1)))
      = entry P G mf (Shape.reshapeEquiv h7 (ix2 R c)) := by
  obtain ⟨k, hk⟩ : ∃ k, Shape.reshapeEquiv h7 (ix2 R c) = k := ⟨_, rfl⟩
  have hpos : ((((k 0).val * 20 + (k 1).val) * 17 + (k 2).val) * 64 + (k 3).val) * 64 + (k 4).val
      = R.val * 4096 + c.val :=
    (Shape.rowMajor_val_five k).symm.trans
      ((congrArg (fun j => ((⟨5, ![16, 20, 17, 64, 64]⟩ : Shape).rowMajor j).val) hk.symm).trans
        ((Shape.rowMajor_reshapeEquiv h7 (ix2 R c)).trans (Shape.rowMajor_val_two (ix2 R c))))
  have h3 : (k 3).val < 64 := (k 3).isLt
  have h4 : (k 4).val < 64 := (k 4).isLt
  have hc : c.val < 4096 := c.isLt
  have hmask := maskColumn_apply mf h9 h10 h11 (k 0) (k 1) (k 2) R (by omega)
  unfold entry
  rw [hmask]
  show contrib (P (Shape.reshapeEquiv h7 (ix2 R c))) (G (Shape.reshapeEquiv h7 (ix2 R c))) _ = _
  rw [hk]

/-- One row's sum: the contributions of row `R` over its 4096 columns. -/
def rowSum (X Y : (⟨2, ![5440, 4096]⟩ : Shape).Idx → EReal) (Mc : (⟨2, ![5440, 1]⟩ : Shape).Idx → EReal)
    (R : Fin 5440) : EReal :=
  ∑ c : Fin 4096, contrib (X (ix2 R c)) (Y (ix2 R c)) (Mc (ix2 R (0 : Fin 1)))

/-- The kernel's total over ten tiles of 544 rows is the sum of the 5440 row sums. -/
theorem kernelTotal_eq_rows (X Y : (⟨2, ![5440, 4096]⟩ : Shape).Idx → EReal)
    (Mc : (⟨2, ![5440, 1]⟩ : Shape).Idx → EReal) :
    kernelTotal X Y Mc = ∑ R : Fin 5440, rowSum X Y Mc R :=
  sum_rowAt (rowSum X Y Mc)

/-- The kernel's total over ten tiles of the reshaped matrices and the flattened mask column is the reference's
    total over the five-dimensional index set. -/
theorem totals_agree
    (P G : (⟨5, ![16, 20, 17, 64, 64]⟩ : Shape).Idx → EReal) (mf : (⟨2, ![16, 20]⟩ : Shape).Idx → EReal)
    (h7 : (⟨5, ![16, 20, 17, 64, 64]⟩ : Shape).ShapeCasts ⟨2, ![5440, 4096]⟩)
    (h9 : (⟨2, ![16, 20]⟩ : Shape).BroadcastsInDim ⟨3, ![16, 20, 1]⟩ (![0, 1] : Fin 2 → Fin 3))
    (h10 : (⟨3, ![16, 20, 1]⟩ : Shape).BroadcastsInDim ⟨3, ![16, 20, 17]⟩ (![0, 1, 2] : Fin 3 → Fin 3))
    (h11 : (⟨3, ![16, 20, 17]⟩ : Shape).ShapeCasts ⟨2, ![5440, 1]⟩) :
    kernelTotal (shapeCast ⟨2, ![5440, 4096]⟩ P h7) (shapeCast ⟨2, ![5440, 4096]⟩ G h7)
        (shapeCast ⟨2, ![5440, 1]⟩ (broadcastInDim ⟨3, ![16, 20, 17]⟩ ![0, 1, 2] h10 (broadcastInDim ⟨3, ![16, 20, 1]⟩ ![0, 1] h9 mf)) h11)
      = refTotal P G mf := by
  refine (kernelTotal_eq_rows _ _ _).trans ?_
  have hrow : ∀ R : Fin 5440,
      rowSum (shapeCast ⟨2, ![5440, 4096]⟩ P h7) (shapeCast ⟨2, ![5440, 4096]⟩ G h7)
        (shapeCast ⟨2, ![5440, 1]⟩
          (broadcastInDim ⟨3, ![16, 20, 17]⟩ ![0, 1, 2] h10 (broadcastInDim ⟨3, ![16, 20, 1]⟩ ![0, 1] h9 mf)) h11) R
        = ∑ c : Fin 4096, entry P G mf (Shape.reshapeEquiv h7 (ix2 R c)) := fun R =>
    Finset.sum_congr rfl fun c _ => contrib_reshaped P G mf h7 h9 h10 h11 R c
  refine (Finset.sum_congr rfl fun R _ => hrow R).trans ?_
  refine (sum_idx2 fun I => entry P G mf (Shape.reshapeEquiv h7 I)).symm.trans ?_
  refine (Equiv.sum_comp (Shape.reshapeEquiv h7) (entry P G mf)).trans ?_
  exact Cert.LibSumIdx.sum_idx5 (entry P G mf)

end Cert.PeakMse

end
-- ==== Proof.KernelNumer.lean ====
/-
  The kernel's 1×1 result array, at the ideal instance, holds the specification's total of the argument tensors: the
  running total is the ten tile sums over the reshaped arguments, and those are the reference's five-fold sum.
-/
import proofs.«162968_j85796266704954_1_alg».proof.Proof.TotalValue
import proofs.«162968_j85796266704954_1_alg».proof.Proof.Reads
import proofs.«162968_j85796266704954_1_alg».proof.Proof.Totals

noncomputable section

open Idealize.ShloMosaic Idealize.ShloMosaic.TcCoe Idealize.SL.Sem

namespace Cert.KernelIdeal.Found

open Cert.KernelIdeal Cert.KernelIdeal.Gen

variable (m : (ℓ : Loc nD τ sig) → Buf (Elt Ideal) ℓ)

/-- The running total after the last point is the total, over all entries of the two heatmap tensors, of the weighted
    squared errors masked by the person mask (converted to floats). -/
theorem total_fun (c : Dev nD) :
    total m c = fun _ => Cert.PeakMse.refTotal (m ((c.tc : Thread nD τ).loc main_arg1)) (m ((c.tc : Thread nD τ).loc main_arg3))
      (sitofp (F := Ideal) .f32 (m ((c.tc : Thread nD τ).loc main_arg5))) := by
  funext y
  rw [total_eq m c y, Reads.V_main_v7 m c, Reads.V_main_v8 m c, Reads.V_main_v11 m c]
  exact Cert.PeakMse.totals_agree _ _ _ _ _ _ _

end Cert.KernelIdeal.Found

end
-- ==== Proof.RefNumer.lean ====
/-
  The reference's numerator is the specification's total.

  The reference multiplies, entry by entry over the five-dimensional index set, the squared error, the peak
  weight (a select between two constants on a comparison of the target with the threshold) and the mask spread
  from (batch, person) over keypoints and pixels, and sums every entry into a scalar starting from zero.  Read at
  an index each operation is the arithmetic on that entry, the spread mask reads the mask at the entry's (batch,
  person), and the sum over the index set is the five nested sums over the coordinates.
-/
import proofs.«162968_j85796266704954_1_alg».proof.Proof.Gen.ReferenceIdeal
import proofs.«162968_j85796266704954_1_alg».proof.Proof.Spec
import proofs.«162968_j85796266704954_1_alg».proof.Proof.LibSumIdx5
import Idealize.ShloMosaic.PureOps.Ideal.Laws
import Idealize.ShloMosaic.Lib.Pipeline.Value
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx

/-- The mask, converted to a float, spread to (16, 20, 1, 1, 1) and then over keypoints and pixels, reads at
    (a, b, k, h, w) the converted mask at (a, b). -/
theorem spreadMask_apply (m : (⟨2, ![16, 20]⟩ : Shape).Idx → EReal) (a : Fin 16) (b : Fin 20) (k : Fin 17) (h w : Fin 64) :
    broadcastInDim S16x20x17x64x64 ![0, 1, 2, 3, 4] bcast_S16x20x1x1x1_S16x20x17x64x64_0_1_2_3_4
        (broadcastInDim S16x20x1x1x1 ![0, 1] bcast_S16x20_S16x20x1x1x1_0_1 m) (ix5 a b k h w)
      = m (ix2 a b) := by
  refine (broadcastInDim_apply _ bcast_S16x20x1x1x1_S16x20x17x64x64_0_1_2_3_4 _ (ix5 a b k h w)
    (ix5 a b (0 : Fin 1) (0 : Fin 1) (0 : Fin 1)) fun ax => ?_).trans ?_
  · match ax with
    | ⟨0, _⟩ => rfl
    | ⟨1, _⟩ => rfl
    | ⟨2, _⟩ => rfl
    | ⟨3, _⟩ => rfl
    | ⟨4, _⟩ => rfl
  · refine broadcastInDim_apply _ bcast_S16x20_S16x20x1x1x1_0_1 m (ix5 a b (0 : Fin 1) (0 : Fin 1) (0 : Fin 1)) (ix2 a b)
      fun ax => ?_
    match ax with
    | ⟨0, _⟩ => rfl
    | ⟨1, _⟩ => rfl

/-- One entry of the reference's product is the specification's contribution of that entry. -/
theorem product_apply (a1 a3 : FVec Ideal S16x20x17x64x64 .f32) (m : FVec Ideal S16x20 .f32)
    (a : Fin 16) (b : Fin 20) (k : Fin 17) (h w : Fin 64) :
    mulf (mulf (mulf (subf a1 a3) (subf a1 a3)) (id (select (cmpf (F := Ideal) .ogt a3 (broadcastInDim S16x20x17x64x64 ![] bcast_S_S16x20x17x64x64 (constant (F := Ideal) S_ .f32 0x3E4CCCCD#32))) (broadcastInDim S16x20x17x64x64 ![] bcast_S_S16x20x17x64x64 (constant (F := Ideal) S_ .f32 0x40A00000#32)) (broadcastInDim S16x20x17x64x64 ![] bcast_S_S16x20x17x64x64 (constant (F := Ideal) S_ .f32 0x3F800000#32))))) (broadcastInDim S16x20x17x64x64 ![0, 1, 2, 3, 4] bcast_S16x20x1x1x1_S16x20x17x64x64_0_1_2_3_4 (broadcastInDim S16x20x1x1x1 ![0, 1] bcast_S16x20_S16x20x1x1x1_0_1 m)) (ix5 a b k h w)
      = Cert.PeakMse.contrib (a1 (ix5 a b k h w)) (a3 (ix5 a b k h w)) (m (ix2 a b)) := by
  refine Eq.trans ?_ (congrArg (Cert.PeakMse.contrib (a1 (ix5 a b k h w)) (a3 (ix5 a b k h w)))
    (spreadMask_apply m a b k h w))
  rfl

/-- The reference's numerator — the sum, from zero, of every entry of the product — is the specification's total. -/
theorem refNumer_eq (a1 a3 : (⟨S16x20x17x64x64, .f32⟩ : BufTy).Contents (Elt Ideal)) (a5 : (⟨S16x20, .i32⟩ : BufTy).Contents (Elt Ideal)) (j : S_.Idx) :
    Host.reduceAdd (F := Ideal) (mulf (mulf (mulf (subf a1 a3) (subf a1 a3)) (id (select (cmpf (F := Ideal) .ogt a3 (broadcastInDim S16x20x17x64x64 ![] bcast_S_S16x20x17x64x64 (constant (F := Ideal) S_ .f32 0x3E4CCCCD#32))) (broadcastInDim S16x20x17x64x64 ![] bcast_S_S16x20x17x64x64 (constant (F := Ideal) S_ .f32 0x40A00000#32)) (broadcastInDim S16x20x17x64x64 ![] bcast_S_S16x20x17x64x64 (constant (F := Ideal) S_ .f32 0x3F800000#32))))) (broadcastInDim S16x20x17x64x64 ![0, 1, 2, 3, 4] bcast_S16x20x1x1x1_S16x20x17x64x64_0_1_2_3_4 (broadcastInDim S16x20x1x1x1 ![0, 1] bcast_S16x20_S16x20x1x1x1_0_1 (sitofp (F := Ideal) .f32 a5)))) (constant (F := Ideal) S_ .f32 0x00000000#32) reducesTo_S16x20x17x64x64_S_d0_1_2_3_4 h_S_ j
      = Cert.PeakMse.refTotal a1 a3 (sitofp (F := Ideal) .f32 a5) := by
  show Ideal.hostReduceAdd reducesTo_S16x20x17x64x64_S_d0_1_2_3_4 _ (Ideal.ofBits .f32 0x00000000#32) j = _
  rw [Ideal.hostReduceAdd_total reducesTo_S16x20x17x64x64_S_d0_1_2_3_4 (fun b => b.elim0), Ideal.ofBits_zero_f32, zero_add]
  refine (Cert.LibSumIdx.sum_idx5 (n0 := 16) (n1 := 20) (n2 := 17) (n3 := 64) (n4 := 64) _).trans ?_
  unfold Cert.PeakMse.refTotal
  exact Finset.sum_congr rfl fun a _ => Finset.sum_congr rfl fun b _ => Finset.sum_congr rfl fun k _ =>
    Finset.sum_congr rfl fun h _ => Finset.sum_congr rfl fun w _ =>
      product_apply a1 a3 (sitofp (F := Ideal) .f32 a5) a b k h w

end Cert.ReferenceIdeal.RefValue

end
-- ==== Proof.RefLoss.lean ====
/-
  The reference's result is the total loss of its own numerator — the five-fold sum of the weighted, masked squared
  errors — and of its small arguments: its composed result term is the loss function applied to them, reading the
  numerator's sum as the specification's total.
-/
import proofs.«162968_j85796266704954_1_alg».proof.Proof.RefRun
import proofs.«162968_j85796266704954_1_alg».proof.Proof.RefNumer
import proofs.«162968_j85796266704954_1_alg».proof.Proof.Loss
import Idealize.ShloMosaic.PureOps.Ideal

noncomputable section

open Idealize.ShloMosaic Idealize.ShloMosaic.TcCoe Idealize.SL.Sem

namespace Cert.ReferenceIdeal.RefValue

open Cert.ReferenceIdeal Cert.ReferenceIdeal.Gen

/-- The reference's numerator, as the constant scalar it is. -/
theorem refNumer_fun (a1 a3 : (⟨S16x20x17x64x64, .f32⟩ : BufTy).Contents (Elt Ideal)) (a5 : (⟨S16x20, .i32⟩ : BufTy).Contents (Elt Ideal)) :
    Host.reduceAdd (F := Ideal) (mulf (mulf (mulf (subf a1 a3) (subf a1 a3)) (id (select (cmpf (F := Ideal) .ogt a3 (broadcastInDim S16x20x17x64x64 ![] bcast_S_S16x20x17x64x64 (constant (F := Ideal) S_ .f32 0x3E4CCCCD#32))) (broadcastInDim S16x20x17x64x64 ![] bcast_S_S16x20x17x64x64 (constant (F := Ideal) S_ .f32 0x40A00000#32)) (broadcastInDim S16x20x17x64x64 ![] bcast_S_S16x20x17x64x64 (constant (F := Ideal) S_ .f32 0x3F800000#32))))) (broadcastInDim S16x20x17x64x64 ![0, 1, 2, 3, 4] bcast_S16x20x1x1x1_S16x20x17x64x64_0_1_2_3_4 (broadcastInDim S16x20x1x1x1 ![0, 1] bcast_S16x20_S16x20x1x1x1_0_1 (sitofp (F := Ideal) .f32 a5)))) (constant (F := Ideal) S_ .f32 0x00000000#32) reducesTo_S16x20x17x64x64_S_d0_1_2_3_4 h_S_
      = fun _ => Cert.PeakMse.refTotal a1 a3 (sitofp (F := Ideal) .f32 a5) :=
  funext fun j => refNumer_eq a1 a3 a5 j

end Cert.ReferenceIdeal.RefValue

namespace Cert.ReferenceIdeal.RefValue

open Cert.ReferenceIdeal Cert.ReferenceIdeal.Gen

set_option maxRecDepth 8192 in
set_option maxHeartbeats 1000000 in
/-- The reference's result: the loss function at the specification's total of its heatmap arguments. -/
theorem result_eq (m' : (ℓ : Loc nD τ sig) → Buf (Elt Ideal) ℓ) (c : Dev nD) :
    Cert.ReferenceIdeal.ValueP.res_main_v49 (F := Ideal) m' c
      = Cert.KernelIdeal.Found.lossOf (F := Ideal)
          (fun _ => Cert.PeakMse.refTotal (m' ((c.tc : Thread nD τ).loc main_arg1)) (m' ((c.tc : Thread nD τ).loc main_arg3))
            (sitofp (F := Ideal) .f32 (m' ((c.tc : Thread nD τ).loc main_arg5))))
          (m' ((c.tc : Thread nD τ).loc main_arg0)) (m' ((c.tc : Thread nD τ).loc main_arg2))
          (m' ((c.tc : Thread nD τ).loc main_arg4)) (m' ((c.tc : Thread nD τ).loc main_arg5)) := by
  unfold Cert.ReferenceIdeal.ValueP.res_main_v49
  rw [refNumer_fun]
  unfold Cert.KernelIdeal.Found.lossOf
  rfl

end Cert.ReferenceIdeal.RefValue

end
-- ==== Proof.Bridge.lean ====
/-
  The two programs' results are one scalar.

  The kernel program ends with the loss function at its running total, which is the specification's total of the
  heatmap arguments; the reference ends with the same loss function at its own five-fold sum, which is the same total.
  On memories that agree on the six arguments the two results are therefore equal.
-/
import proofs.«162968_j85796266704954_1_alg».proof.Proof.Outcome
import proofs.«162968_j85796266704954_1_alg».proof.Proof.KernelNumer
import proofs.«162968_j85796266704954_1_alg».proof.Proof.RefLoss

noncomputable section

open Idealize.ShloMosaic Idealize.ShloMosaic.TcCoe Idealize.SL.Sem

namespace Cert.Bridge

open Cert.KernelIdeal Cert.KernelIdeal.Gen Cert.KernelIdeal.Found

/-- A constant block read under another shape is the same constant. -/
theorem shapeCast_const {s t : Shape} {α : Type} (x : α) (h : s.ShapeCasts t) :
    shapeCast t (fun _ : s.Idx => x) h = fun _ => x := rfl

set_option maxHeartbeats 1000000 in
/-- From memories that agree on the arguments, the kernel program's result is the reference's. -/
theorem results_agree (m : (ℓ : Loc nD τ sig) → Buf (Elt Ideal) ℓ)
    (m' : (ℓ : Loc Cert.ReferenceIdeal.nD Cert.ReferenceIdeal.τ Cert.ReferenceIdeal.sig) → Buf (Elt Ideal) ℓ)
    (hag : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)))
    (c : Dev nD) :
    outcome m c = Cert.ReferenceIdeal.ValueP.res_main_v49 (F := Ideal) m' c := by
  rw [Cert.ReferenceIdeal.RefValue.result_eq m' c, (hag c).1, (hag c).2.1, (hag c).2.2.1, (hag c).2.2.2.1, (hag c).2.2.2.2.1,
    (hag c).2.2.2.2.2, outcome_eq m c, total_fun m c, shapeCast_const]

end Cert.Bridge

end
-- ==== Proof.lean ====
/-
  The certificate of the weighted heatmap loss kernel against its reference.

  The program computes a three-part loss: a cross-entropy on the count logits, a focal loss on the confidence logits,
  and a peak-weighted, masked mean squared error of the heatmaps.  The kernel program computes the numerator of the
  last part — the sum over all heatmap entries of (pred − gt)² · w(gt) · mask, with w = 5 where gt exceeds 0.2 and 1
  elsewhere — in a grid of ten tiles of 544 rows by 4096 columns, accumulating the tiles' sums in a 1×1 scratch and
  writing the total out after the last tile; the reference takes the same sum over the five-dimensional tensors in one
  reduction.  Everything else (both small losses, the denominator, the guard on an empty mask, the final weighted sum)
  is the same host computation in both programs.

  Over the extended reals addition is commutative and associative, so the kernel's tile-by-tile running total and the
  reference's single sum are the same number for every input, finite or not; the rest of the loss is one function of
  that number and of the small arguments (Loss.lean), so the two results agree.  The frames are the generated ones
  (the reference's is its run with the result dropped), and the idealization rewrote nothing.
-/
import proofs.«162968_j85796266704954_1_alg».proof.Defs
import proofs.«162968_j85796266704954_1_alg».proof.Proof.Gen.Kernel
import proofs.«162968_j85796266704954_1_alg».proof.Proof.Gen.Kernel.Frame
import proofs.«162968_j85796266704954_1_alg».proof.Proof.Gen.KernelIdeal
import proofs.«162968_j85796266704954_1_alg».proof.Proof.Gen.KernelIdeal.Frame
import proofs.«162968_j85796266704954_1_alg».proof.Proof.Gen.ReferenceIdeal
import proofs.«162968_j85796266704954_1_alg».proof.Proof.Gen.Pre_finite_inputs
import proofs.«162968_j85796266704954_1_alg».proof.Proof.KernelRun
import proofs.«162968_j85796266704954_1_alg».proof.Proof.RefRun
import proofs.«162968_j85796266704954_1_alg».proof.Proof.Bridge
import Idealize.ShloMosaic.Adequacy
import Idealize.ShloMosaic.Init

noncomputable section

namespace Cert.Proof

open Idealize.ShloMosaic Idealize.SL.Sem

/-- The kernel program, as printed: the generated frame. -/
theorem frame_k : Cert.frame_Kernel := fun m ρ _ => Cert.Kernel.Gen.frame m ρ

/-- The idealized kernel program: the generated frame. -/
theorem frame_ki : Cert.frame_KernelIdeal := fun m ρ _ => Cert.KernelIdeal.Gen.frame m ρ

/-- The idealized reference: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- At the ideal instance both programs run, the arguments unchanged, and end with the same scalar: the loss function
    at the total of the weighted, masked squared errors. -/
theorem algebraic : Cert.algebraic_KernelIdeal_ReferenceIdeal := by
  intro m ρ m' ρ' _ hagree
  refine ⟨fun c => Cert.KernelIdeal.Found.outcome m c, Cert.KernelIdeal.Found.run (F := Ideal) m ρ, ?_⟩
  exact (θ_run Cert.ReferenceIdeal.defs _ _).mono
    (fun _ h c => ⟨(h c).1.trans (Cert.Bridge.results_agree m m' hagree c).symm, (h c).2⟩)
    (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
